-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S100000x64 : Shape := ⟨2, ![100000, 64]⟩
abbrev S2x1000000 : Shape := ⟨2, ![2, 1000000]⟩
abbrev S64 : Shape := ⟨1, ![64]⟩
abbrev S64x64 : Shape := ⟨2, ![64, 64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S1 .f32) (main_arg1 : FVec F S100000x64 .f32) (main_arg2 : IVec S2x1000000 32) (main_arg3 : IVec S2x1000000 32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S1 : Shape := ⟨1, ![1]⟩
abbrev S100000x64 : Shape := ⟨2, ![100000, 64]⟩
abbrev S2x1000000 : Shape := ⟨2, ![2, 1000000]⟩
abbrev S64 : Shape := ⟨1, ![64]⟩
abbrev S64x64 : Shape := ⟨2, ![64, 64]⟩
abbrev S5000x64 : Shape := ⟨2, ![5000, 64]⟩
abbrev S5000 : Shape := ⟨1, ![5000]⟩
abbrev S5000x1 : Shape := ⟨2, ![5000, 1]⟩
abbrev S1x64 : Shape := ⟨2, ![1, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩

abbrev nBuf : Space → Nat
  | .hbm => 141
  | .vmem => 20
  | .smem => 0
  | _ => 0

abbrev hbmTy0_0 (i : Nat) : BufTy := match i % 128 with
  | 0 => ⟨S1, .f32⟩
  | 1 => ⟨S100000x64, .f32⟩
  | 2 => ⟨S2x1000000, .i32⟩
  | 3 => ⟨S2x1000000, .i32⟩
  | 4 => ⟨S64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S100000x64, .f32⟩
  | 15 => ⟨S100000x64, .f32⟩
  | 16 => ⟨S100000, .i32⟩
  | 17 => ⟨S1x1000000, .i32⟩
  | 18 => ⟨S1000000, .i32⟩
  | 19 => ⟨S1100000, .i32⟩
  | 20 => ⟨S1x1000000, .i32⟩
  | 21 => ⟨S1000000, .i32⟩
  | 22 => ⟨S1100000, .i32⟩
  | 23 => ⟨S_, .f32⟩
  | 24 => ⟨S1100000, .f32⟩
  | 25 => ⟨S_, .f32⟩
  | 26 => ⟨S100000, .f32⟩
  | 27 => ⟨S1100000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S_, .i32⟩
  | 50 => ⟨S1100000, .i32⟩
  | 51 => ⟨S1100000, .i1⟩
  | 52 => ⟨S_, .i32⟩
  | 53 => ⟨S1100000, .i32⟩
  | 54 => ⟨S1100000, .i32⟩
  | 55 => ⟨S1100000, .i32⟩
  | 56 => ⟨S1100000x1, .i32⟩
  | 57 => ⟨S1100000, .f32⟩
  | 58 => ⟨S1100000, .f32⟩
  | 59 => ⟨S1100000x1, .f32⟩
  | 60 => ⟨S_, .i32⟩
  | 61 => ⟨S1100000, .i32⟩
  | 62 => ⟨S1100000, .i1⟩
  | 63 => ⟨S_, .i32⟩
  | 64 => ⟨S1100000, .i32⟩
  | 65 => ⟨S1100000, .i32⟩
  | 66 => ⟨S1100000, .i32⟩
  | 67 => ⟨S1100000x1, .i32⟩
  | 68 => ⟨S1100000x64, .f32⟩
  | 69 => ⟨S1100000x64, .f32⟩
  | 70 => ⟨S1100000x64, .f32⟩
  | 71 => ⟨S_, .f32⟩
  | 72 => ⟨S100000x64, .f32⟩
  | 73 => ⟨S1100000x1, .i32⟩
  | 74 => ⟨S100000x64, .f32⟩
  | 75 => ⟨S1x64, .f32⟩
  | 76 => ⟨S100000x64, .f32⟩
  | 77 => ⟨S100000x64, .f32⟩
  | 78 => ⟨S100000, .i32⟩
  | 79 => ⟨S1x1000000, .i32⟩
  | 80 => ⟨S1000000, .i32⟩
  | 81 => ⟨S1100000, .i32⟩
  | 82 => ⟨S1x1000000, .i32⟩
  | 83 => ⟨S1000000, .i32⟩
  | 84 => ⟨S1100000, .i32⟩
  | 85 => ⟨S_, .f32⟩
  | 86 => ⟨S1100000, .f32⟩
  | 87 => ⟨S_, .f32⟩
  | 88 => ⟨S100000, .f32⟩
  | 89 => ⟨S1100000x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S1100000, .i32⟩
  | 104 => ⟨S1100000, .i1⟩
  | 105 => ⟨S_, .i32⟩
  | 106 => ⟨S1100000, .i32⟩
  | 107 => ⟨S1100000, .i32⟩
  | 108 => ⟨S1100000, .i32⟩
  | 109 => ⟨S1100000x1, .i32⟩
  | 110 => ⟨S1100000, .f32⟩
  | 111 => ⟨S_, .i32⟩
  | 112 => ⟨S1100000, .i32⟩
  | 113 => ⟨S1100000, .i1⟩
  | 114 => ⟨S_, .i32⟩
  | 115 => ⟨S1100000, .i32⟩
  | 116 => ⟨S1100000, .i32⟩
  | 117 => ⟨S1100000, .i32⟩
  | 118 => ⟨S1100000x1, .i32⟩
  | 119 => ⟨S1100000, .f32⟩
  | 120 => ⟨S1100000, .f32⟩
  | 121 => ⟨S1100000x1, .f32⟩
  | 122 => ⟨S_, .i32⟩
  | 123 => ⟨S1100000, .i32⟩
  | 124 => ⟨S1100000, .i1⟩
  | 125 => ⟨S_, .i32⟩
  | 126 => ⟨S1100000, .i32⟩
  | 127 => ⟨S1100000, .i32⟩
  | _ => ⟨S1, .f32⟩

abbrev hbmTy0_1 (i : Nat) : BufTy := match i % 128 with
  | 0 => ⟨S1100000, .i32⟩
  | 1 => ⟨S1100000x1, .i32⟩
  | 2 => ⟨S1100000x64, .f32⟩
  | 3 => ⟨S1100000x64, .f32⟩
  | 4 => ⟨S1100000x64, .f32⟩
  | 5 => ⟨S_, .f32⟩
  | 6 => ⟨S100000x64, .f32⟩
  | 7 => ⟨S1100000x1, .i32⟩
  | 8 => ⟨S100000x64, .f32⟩
  | 9 => ⟨S1x64, .f32⟩
  | 10 => ⟨S100000x64, .f32⟩
  | 11 => ⟨S100000x64, .f32⟩
  | 12 => ⟨S100000x64, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64, .f32⟩
  | .local _ .vmem, ⟨3, _⟩ => ⟨S64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_call1_v0 : Ref sig .tc := ⟨.hbm, 99, rfl⟩
abbrev main_call1_v1 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_17 : Ref sig .tc := ⟨.hbm, 111, rfl⟩
abbrev main_v73 : Ref sig .tc := ⟨.hbm, 112, rfl⟩
abbrev main_v74 : Ref sig .tc := ⟨.hbm, 113, rfl⟩
abbrev main_c_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_19 : Ref sig .tc := ⟨.hbm, 122, rfl⟩
abbrev main_v82 : Ref sig .tc := ⟨.hbm, 123, rfl⟩
abbrev main_v83 : Ref sig .tc := ⟨.hbm, 124, rfl⟩
abbrev main_c_20 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v96) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v97) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1 : Shape := ⟨1, ![1]⟩
abbrev S100000x64 : Shape := ⟨2, ![100000, 64]⟩
abbrev S2x1000000 : Shape := ⟨2, ![2, 1000000]⟩
abbrev S64 : Shape := ⟨1, ![64]⟩
abbrev S64x64 : Shape := ⟨2, ![64, 64]⟩
abbrev S_ : Shape := ⟨0, ![]⟩
abbrev S100000 : Shape := ⟨1, ![100000]⟩
abbrev S100000x1 : Shape := ⟨2, ![100000, 1]⟩
abbrev S1x64 : Shape := ⟨2, ![1, 64]⟩
abbrev S1x1000000 : Shape := ⟨2, ![1, 1000000]⟩
abbrev S1000000 : Shape := ⟨1, ![1000000]⟩
abbrev S1100000 : Shape := ⟨1, ![1100000]⟩
abbrev S1100000x1 : Shape := ⟨2, ![1100000, 1]⟩
abbrev S1100000x64 : Shape := ⟨2, ![1100000, 64]⟩

abbrev nBuf : Space → Nat
  | .hbm => 186
  | .vmem => 0
  | .smem => 0
  | _ => 0

abbrev hbmTy0_0 (i : Nat) : BufTy := match i % 128 with
  | 0 => ⟨S1, .f32⟩
  | 1 => ⟨S100000x64, .f32⟩
  | 2 => ⟨S2x1000000, .i32⟩
  | 3 => ⟨S2x1000000, .i32⟩
  | 4 => ⟨S64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x64, .f32⟩
  | 21 => ⟨S100000x64, .f32⟩
  | 22 => ⟨S100000x64, .f32⟩
  | 23 => ⟨S_, .f32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S100000x64, .f32⟩
  | 30 => ⟨S100000x64, .f32⟩
  | 31 => ⟨S_, .f32⟩
  | 32 => ⟨S100000x1, .f32⟩
  | 33 => ⟨S100000x1, .f32⟩
  | 34 => ⟨S100000x1, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S100000x64, .f32⟩
  | 44 => ⟨S100000, .i32⟩
  | 45 => ⟨S1x1000000, .i32⟩
  | 46 => ⟨S1000000, .i32⟩
  | 47 => ⟨S1100000, .i32⟩
  | 48 => ⟨S1x1000000, .i32⟩
  | 49 => ⟨S1000000, .i32⟩
  | 50 => ⟨S1100000, .i32⟩
  | 51 => ⟨S_, .f32⟩
  | 52 => ⟨S1100000, .f32⟩
  | 53 => ⟨S_, .f32⟩
  | 54 => ⟨S100000, .f32⟩
  | 55 => ⟨S1100000x1, .i32⟩
  | 56 => ⟨S100000, .f32⟩
  | 57 => ⟨S_, .f32⟩
  | 58 => ⟨S100000, .f32⟩
  | 59 => ⟨S100000, .i1⟩
  | 60 => ⟨S_, .f32⟩
  | 61 => ⟨S100000, .f32⟩
  | 62 => ⟨S100000, .f32⟩
  | 63 => ⟨S100000, .f32⟩
  | 64 => ⟨S_, .f32⟩
  | 65 => ⟨S_, .f32⟩
  | 66 => ⟨S100000, .f32⟩
  | 67 => ⟨S100000, .f32⟩
  | 68 => ⟨S_, .i32⟩
  | 69 => ⟨S1100000, .i32⟩
  | 70 => ⟨S1100000, .i1⟩
  | 71 => ⟨S_, .i32⟩
  | 72 => ⟨S1100000, .i32⟩
  | 73 => ⟨S1100000, .i32⟩
  | 74 => ⟨S1100000, .i32⟩
  | 75 => ⟨S1100000x1, .i32⟩
  | 76 => ⟨S1100000, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1100000, .f32⟩
  | 86 => ⟨S1100000, .f32⟩
  | 87 => ⟨S1100000x1, .f32⟩
  | 88 => ⟨S_, .i32⟩
  | 89 => ⟨S1100000, .i32⟩
  | 90 => ⟨S1100000, .i1⟩
  | 91 => ⟨S_, .i32⟩
  | 92 => ⟨S1100000, .i32⟩
  | 93 => ⟨S1100000, .i32⟩
  | 94 => ⟨S1100000, .i32⟩
  | 95 => ⟨S1100000x1, .i32⟩
  | 96 => ⟨S1100000x64, .f32⟩
  | 97 => ⟨S1100000x64, .f32⟩
  | 98 => ⟨S1100000x64, .f32⟩
  | 99 => ⟨S_, .f32⟩
  | 100 => ⟨S100000x64, .f32⟩
  | 101 => ⟨S1100000x1, .i32⟩
  | 102 => ⟨S100000x64, .f32⟩
  | 103 => ⟨S1x64, .f32⟩
  | 104 => ⟨S100000x64, .f32⟩
  | 105 => ⟨S100000x64, .f32⟩
  | 106 => ⟨S100000x64, .f32⟩
  | 107 => ⟨S100000, .i32⟩
  | 108 => ⟨S1x1000000, .i32⟩
  | 109 => ⟨S1000000, .i32⟩
  | 110 => ⟨S1100000, .i32⟩
  | 111 => ⟨S1x1000000, .i32⟩
  | 112 => ⟨S1000000, .i32⟩
  | 113 => ⟨S1100000, .i32⟩
  | 114 => ⟨S_, .f32⟩
  | 115 => ⟨S1100000, .f32⟩
  | 116 => ⟨S_, .f32⟩
  | 117 => ⟨S100000, .f32⟩
  | 118 => ⟨S1100000x1, .i32⟩
  | 119 => ⟨S100000, .f32⟩
  | 120 => ⟨S_, .f32⟩
  | 121 => ⟨S100000, .f32⟩
  | 122 => ⟨S100000, .i1⟩
  | 123 => ⟨S_, .f32⟩
  | 124 => ⟨S100000, .f32⟩
  | 125 => ⟨S100000, .f32⟩
  | 126 => ⟨S100000, .f32⟩
  | 127 => ⟨S_, .f32⟩
  | _ => ⟨S1, .f32⟩

abbrev hbmTy0_1 (i : Nat) : BufTy := match i % 128 with
  | 0 => ⟨S_, .f32⟩
  | 1 => ⟨S100000, .f32⟩
  | 2 => ⟨S100000, .f32⟩
  | 3 => ⟨S_, .i32⟩
  | 4 => ⟨S1100000, .i32⟩
  | 5 => ⟨S1100000, .i1⟩
  | 6 => ⟨S_, .i32⟩
  | 7 => ⟨S1100000, .i32⟩
  | 8 => ⟨S1100000, .i32⟩
  | 9 => ⟨S1100000, .i32⟩
  | 10 => ⟨S1100000x1, .i32⟩
  | 11 => ⟨S1100000, .f32⟩
  | 12 => ⟨S_, .i32⟩
  | 13 => ⟨S1100000, .i32⟩
  | 14 => ⟨S1100000, .i1⟩
  | 15 => ⟨S_, .i32⟩
  | 16 => ⟨S1100000, .i32⟩
  | 17 => ⟨S1100000, .i32⟩
  | 18 => ⟨S1100000, .i32⟩
  | 19 => ⟨S1100000x1, .i32⟩
  | 20 => ⟨S1100000, .f32⟩
  | 21 => ⟨S1100000, .f32⟩
  | 22 => ⟨S1100000x1, .f32⟩
  | 23 => ⟨S_, .i32⟩
  | 24 => ⟨S1100000, .i32⟩
  | 25 => ⟨S1100000, .i1⟩
  | 26 => ⟨S_, .i32⟩
  | 27 => ⟨S1100000, .i32⟩
  | 28 => ⟨S1100000, .i32⟩
  | 29 => ⟨S1100000, .i32⟩
  | 30 => ⟨S1100000x1, .i32⟩
  | 31 => ⟨S1100000x64, .f32⟩
  | 32 => ⟨S1100000x64, .f32⟩
  | 33 => ⟨S1100000x64, .f32⟩
  | 34 => ⟨S_, .f32⟩
  | 35 => ⟨S100000x64, .f32⟩
  | 36 => ⟨S1100000x1, .i32⟩
  | 37 => ⟨S100000x64, .f32⟩
  | 38 => ⟨S1x64, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S100000x64, .f32⟩
  | 54 => ⟨S100000x64, .f32⟩
  | 55 => ⟨S_, .f32⟩
  | 56 => ⟨S100000x64, .f32⟩
  | 57 => ⟨S100000x64, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_v41 : Ref sig .tc := ⟨.hbm, 67, rfl⟩
abbrev main_c : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_call1_v0 : Ref sig .tc := ⟨.hbm, 128, rfl⟩
abbrev main_call1_v1 : Ref sig .tc := ⟨.hbm, 129, rfl⟩
abbrev main_v90 : Ref sig .tc := ⟨.hbm, 130, rfl⟩
abbrev main_c_20 : Ref sig .tc := ⟨.hbm, 131, rfl⟩
abbrev main_v91 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_22 : Ref sig .tc := ⟨.hbm, 140, rfl⟩
abbrev main_v98 : Ref sig .tc := ⟨.hbm, 141, rfl⟩
abbrev main_v99 : Ref sig .tc := ⟨.hbm, 142, rfl⟩
abbrev main_c_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_26 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_27 : Ref sig .tc := ⟨.hbm, 178, rfl⟩
abbrev main_cst_28 : Ref sig .tc := ⟨.hbm, 179, rfl⟩
abbrev main_call2_v0 : Ref sig .tc := ⟨.hbm, 180, rfl⟩
abbrev main_call2_v1 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_v131 : Ref sig .tc := ⟨.hbm, 185, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.RowMath.lean ====
/-
  One node's row of 64 features, on the extended reals.

  A row is normalised: its mean (the sum over the 64 features divided by 64) is subtracted, the result is multiplied by
  the reciprocal square root of the mean squared deviation plus a small offset, scaled feature by feature by `g` and
  shifted by `b`. A row is sent through a 64 x 64 matrix as the 64 sums  sum_k v k * W k q.  Two such images, each
  shifted by its own bias, are added and clipped to the interval between two bounds.

  The four float constants (64, the offset, the two bounds) are kept as the values of their 32-bit patterns; nothing below
  needs to know which real numbers they are.
-/
import Idealize.ShloMosaic.PureOps.Ideal

noncomputable section

namespace Cert.RowMath

open Idealize.ShloMosaic

/-- The divisor of both means: the value of the pattern of 64.0. -/
abbrev sixtyFour : EReal := Ideal.ofBits .f32 0x42800000#32
/-- The offset added to the mean squared deviation before the reciprocal square root. -/
abbrev offset : EReal := Ideal.ofBits .f32 0x3727C5AC#32
/-- The lower clipping bound. -/
abbrev lo : EReal := Ideal.ofBits .f32 0xC2480000#32
/-- The upper clipping bound. -/
abbrev hi : EReal := Ideal.ofBits .f32 0x42480000#32

/-- The mean of a row: its sum divided by 64. -/
def mean (row : Fin 64 → EReal) : EReal := Ideal.div (∑ k : Fin 64, row k) sixtyFour

/-- The mean of the squared deviations from the mean. -/
def msd (row : Fin 64 → EReal) : EReal :=
  Ideal.div (∑ k : Fin 64, (row k - mean row) * (row k - mean row)) sixtyFour

/-- The normalised row, scaled by `g` and shifted by `b`, at feature `q`. -/
def norm (row g b : Fin 64 → EReal) (q : Fin 64) : EReal :=
  (row q - mean row) * Ideal.rsqrt (msd row + offset) * g q + b q

/-- A row times a 64 x 64 matrix, at column `q`. -/
def lin (v : Fin 64 → EReal) (W : Fin 64 → Fin 64 → EReal) (q : Fin 64) : EReal := ∑ k : Fin 64, v k * W k q

/-- Two rows, each through its matrix and shifted by its bias, added and clipped. -/
def fuse (hp hn : Fin 64 → EReal) (Wp : Fin 64 → Fin 64 → EReal) (bp : Fin 64 → EReal)
    (Wn : Fin 64 → Fin 64 → EReal) (bn : Fin 64 → EReal) (q : Fin 64) : EReal :=
  min hi (max lo ((lin hp Wp q + bp q) + (lin hn Wn q + bn q)))

end Cert.RowMath

end
-- ==== Proof.ArrMath.lean ====
/-
  The two dense stages as functions of whole arrays, index by index.

  For an array of `n` rows of 64 features: `xform` normalises every row and sends it through a 64 x 64 matrix;
  `fused` sends the rows of two arrays through their matrices, adds the biases and the two images, and clips.
  Entry (p, q) of either depends on row p of its operands only, so the same definition describes a block of rows
  (n = 5000) and the whole array (n = 100000): a block of the result is the result of the block.
-/
import proofs.«140525_j10986526343306_1_alg».proof.Proof.RowMath
import Idealize.ShloMosaic.Lib.ValueIdx

noncomputable section

namespace Cert.ArrMath

open Idealize.ShloMosaic Idealize.ShloMosaic.ValueIdx Cert.RowMath

/-- Row `p` of an array of rows of 64 features. -/
def rowOf {n : ℕ} (h : (⟨2, ![n, 64]⟩ : Shape).Idx → EReal) (p : Fin n) : Fin 64 → EReal := fun k => h (ix2 p k)

/-- A vector of 64 features as a function of the feature. -/
def vecOf (g : (⟨1, ![64]⟩ : Shape).Idx → EReal) : Fin 64 → EReal := fun k => g (ix1 k)

/-- A 64 x 64 matrix as a function of row and column. -/
def matOf (W : (⟨2, ![64, 64]⟩ : Shape).Idx → EReal) : Fin 64 → Fin 64 → EReal := fun k q => W (ix2 k q)

/-- Every row normalised (scale `g`, shift `b`), then times `W`. -/
def xform {n : ℕ} (h : (⟨2, ![n, 64]⟩ : Shape).Idx → EReal) (g b : (⟨1, ![64]⟩ : Shape).Idx → EReal)
    (W : (⟨2, ![64, 64]⟩ : Shape).Idx → EReal) : (⟨2, ![n, 64]⟩ : Shape).Idx → EReal :=
  fun i => lin (norm (rowOf h (i 0)) (vecOf g) (vecOf b)) (matOf W) (i 1)

/-- The rows of two arrays through their matrices, biases added, the two images added and clipped. -/
def fused {n : ℕ} (hp hn : (⟨2, ![n, 64]⟩ : Shape).Idx → EReal)
    (Wp : (⟨2, ![64, 64]⟩ : Shape).Idx → EReal) (bp : (⟨1, ![64]⟩ : Shape).Idx → EReal)
    (Wn : (⟨2, ![64, 64]⟩ : Shape).Idx → EReal) (bn : (⟨1, ![64]⟩ : Shape).Idx → EReal) :
    (⟨2, ![n, 64]⟩ : Shape).Idx → EReal :=
  fun i => fuse (rowOf hp (i 0)) (rowOf hn (i 0)) (matOf Wp) (vecOf bp) (matOf Wn) (vecOf bn) (i 1)

theorem xform_ix2 {n : ℕ} (h : (⟨2, ![n, 64]⟩ : Shape).Idx → EReal) (g b : (⟨1, ![64]⟩ : Shape).Idx → EReal)
    (W : (⟨2, ![64, 64]⟩ : Shape).Idx → EReal) (p : Fin n) (q : Fin 64) :
    xform h g b W (ix2 p q) = lin (norm (rowOf h p) (vecOf g) (vecOf b)) (matOf W) q := rfl

theorem fused_ix2 {n : ℕ} (hp hn : (⟨2, ![n, 64]⟩ : Shape).Idx → EReal)
    (Wp : (⟨2, ![64, 64]⟩ : Shape).Idx → EReal) (bp : (⟨1, ![64]⟩ : Shape).Idx → EReal)
    (Wn : (⟨2, ![64, 64]⟩ : Shape).Idx → EReal) (bn : (⟨1, ![64]⟩ : Shape).Idx → EReal) (p : Fin n) (q : Fin 64) :
    fused hp hn Wp bp Wn bn (ix2 p q) = fuse (rowOf hp p) (rowOf hn p) (matOf Wp) (vecOf bp) (matOf Wn) (vecOf bn) q := rfl

/-- Entry `i` of `xform` depends on row `i 0` of the array, on the two vectors and on the matrix only: two sets of
    operands that agree there (possibly arrays of different heights: a block and the whole array) give equal entries. -/
theorem xform_congr {n n' : ℕ} (h : (⟨2, ![n, 64]⟩ : Shape).Idx → EReal) (h' : (⟨2, ![n', 64]⟩ : Shape).Idx → EReal)
    (g b g' b' : (⟨1, ![64]⟩ : Shape).Idx → EReal) (W W' : (⟨2, ![64, 64]⟩ : Shape).Idx → EReal)
    (p : Fin n) (p' : Fin n') (q : Fin 64)
    (hrow : ∀ k : Fin 64, h (ix2 p k) = h' (ix2 p' k)) (hg : ∀ k : Fin 64, g (ix1 k) = g' (ix1 k))
    (hb : ∀ k : Fin 64, b (ix1 k) = b' (ix1 k)) (hW : ∀ k q : Fin 64, W (ix2 k q) = W' (ix2 k q)) :
    xform h g b W (ix2 p q) = xform h' g' b' W' (ix2 p' q) := by
  rw [xform_ix2, xform_ix2]
  rw [show rowOf h p = rowOf h' p' from funext hrow, show vecOf g = vecOf g' from funext hg,
    show vecOf b = vecOf b' from funext hb, show matOf W = matOf W' from funext fun k => funext fun q => hW k q]

/-- The same for `fused`: entry `i` depends on row `i 0` of the two arrays, on the matrices and on the biases. -/
theorem fused_congr {n n' : ℕ} (hp hn : (⟨2, ![n, 64]⟩ : Shape).Idx → EReal) (hp' hn' : (⟨2, ![n', 64]⟩ : Shape).Idx → EReal)
    (Wp Wp' : (⟨2, ![64, 64]⟩ : Shape).Idx → EReal) (bp bp' : (⟨1, ![64]⟩ : Shape).Idx → EReal)
    (Wn Wn' : (⟨2, ![64, 64]⟩ : Shape).Idx → EReal) (bn bn' : (⟨1, ![64]⟩ : Shape).Idx → EReal)
    (p : Fin n) (p' : Fin n') (q : Fin 64)
    (hrp : ∀ k : Fin 64, hp (ix2 p k) = hp' (ix2 p' k)) (hrn : ∀ k : Fin 64, hn (ix2 p k) = hn' (ix2 p' k))
    (hWp : ∀ k q : Fin 64, Wp (ix2 k q) = Wp' (ix2 k q)) (hbp : ∀ k : Fin 64, bp (ix1 k) = bp' (ix1 k))
    (hWn : ∀ k q : Fin 64, Wn (ix2 k q) = Wn' (ix2 k q)) (hbn : ∀ k : Fin 64, bn (ix1 k) = bn' (ix1 k)) :
    fused hp hn Wp bp Wn bn (ix2 p q) = fused hp' hn' Wp' bp' Wn' bn' (ix2 p' q) := by
  rw [fused_ix2, fused_ix2]
  rw [show rowOf hp p = rowOf hp' p' from funext hrp, show rowOf hn p = rowOf hn' p' from funext hrn,
    show matOf Wp = matOf Wp' from funext fun k => funext fun q => hWp k q, show vecOf bp = vecOf bp' from funext hbp,
    show matOf Wn = matOf Wn' from funext fun k => funext fun q => hWn k q, show vecOf bn = vecOf bn' from funext hbn]

end Cert.ArrMath

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Body0.lean ====
/-
  What the first dense stage computes on one block of 5000 rows, entry by entry.

  The block's rows are normalised one by one: the row sum is kept as a 5000 x 1 column, divided by 64, repeated along the
  64 features and subtracted; the squared deviations are summed and divided the same way; the reciprocal square root of
  that column plus the offset multiplies the deviations; the scale and the shift, vectors of 64 features, are repeated
  along the rows. Entry (r, q) of the normalised block is therefore `norm` of row r at feature q, and entry (r, q) of
  either product with a 64 x 64 matrix is the sum over k of the normalised row at k times the matrix at (k, q).
-/
import proofs.«140525_j10986526343306_1_alg».proof.Proof.Gen.KernelIdeal.Skeleton
import proofs.«140525_j10986526343306_1_alg».proof.Proof.ArrMath
import proofs.«140525_j10986526343306_1_alg».proof.Proof.LibKeepdims
import proofs.«140525_j10986526343306_1_alg».proof.Proof.LibMatmulSum
import Idealize.ShloMosaic.Lib.ValueLayout
import Idealize.ShloMosaic.PureOps.Ideal.Laws

noncomputable section

namespace Cert.KernelIdeal.Rows

open Idealize.ShloMosaic Idealize.ShloMosaic.ValueIdx Cert.KernelIdeal Cert.KernelIdeal.Gen Cert.RowMath Cert.ArrMath

/-- The reciprocal square root of a vector, at an index. -/
theorem rsqrt_at {s : Shape} {φ : FTy} (x : FVec Ideal s φ) (i : s.Idx) : rsqrt x i = Ideal.rsqrt (x i) := rfl

/-- The sum of a 5000 x 64 block along its features, read at row `r`: the sum of the row's 64 entries. -/
theorem rowSum_at (v : FVec Ideal S5000x64 .f32) (r : Fin 5000) :
    multiReduction .add [1] S5000 v 0x00000000#32 Facts₀.reduces_S5000x64_S5000 (.inl rfl) rfl (ix1 r) = ∑ k : Fin 64, v (ix2 r k) := by
  refine (Ideal.multiReduction_add_single v 0x00000000#32 Facts₀.reduces_S5000x64_S5000 (.inl rfl) rfl (ix1 r)).trans ?_
  refine Finset.sum_congr rfl fun k _ => ?_
  exact congrArg v (funext fun a => Fin.ext (by match a with | ⟨0, _⟩ => rfl | ⟨1, _⟩ => rfl))

/-- The 5000 x 64 by 64 x 64 product the block is sent through is a plain one: rows by columns over k < 64. -/
theorem dot_plain : Cert.LibMatmulSum.Plain (n := 5000) (K := 64) (w := 64) dot_S5000x64_S64x64_S5000x64_1_0_0_1_n_n :=
  ⟨rfl, rfl, fun _ _ => rfl, fun _ _ => rfl, fun _ _ => rfl, fun _ _ => rfl⟩

/-- The normalised block at entry (r, q). -/
theorem normalised_at (x0 : FVec Ideal S5000x64 .f32) (x1 x2 : FVec Ideal S64 .f32) (r : Fin 5000) (q : Fin 64) :
    k0_pay1 (F := Ideal) x0 x1 x2 (ix2 r q) = norm (rowOf x0 r) (vecOf x1) (vecOf x2) q := by
  simp only [k0_pay1, addf_apply, mulf_apply, subf_apply, divf_apply, rsqrt_at, broadcast_apply,
    broadcastTo_a1_ab_apply, shapeCast_a_a1_apply, broadcastTo_1b_ab_apply, shapeCast_a_1a_apply]
  -- the row's sum (for the mean), then the sum of the squared deviations
  rw [rowSum_at x0 r, rowSum_at _ r]
  simp only [mulf_apply, subf_apply, divf_apply, broadcast_apply, broadcastTo_a1_ab_apply, shapeCast_a_a1_apply]
  -- the mean again, inside each squared deviation
  rw [rowSum_at x0 r]
  rfl

/-- The block times the first matrix, at entry (r, q). -/
theorem first_at (x0 : FVec Ideal S5000x64 .f32) (x1 x2 : FVec Ideal S64 .f32) (x3 : FVec Ideal S64x64 .f32)
    (r : Fin 5000) (q : Fin 64) :
    k0_pay2 (F := Ideal) x0 x1 x2 x3 (ix2 r q) = lin (norm (rowOf x0 r) (vecOf x1) (vecOf x2)) (matOf x3) q := by
  unfold k0_pay2
  refine (Cert.LibMatmulSum.matmul_zero_at dot_plain none (k0_pay1 (F := Ideal) x0 x1 x2) x3 r q).trans ?_
  exact Finset.sum_congr rfl fun k _ => congrArg (· * x3 (ix2 k q)) (normalised_at x0 x1 x2 r k)

/-- The block times the second matrix, at entry (r, q). -/
theorem second_at (x0 : FVec Ideal S5000x64 .f32) (x1 x2 : FVec Ideal S64 .f32) (x4 : FVec Ideal S64x64 .f32)
    (r : Fin 5000) (q : Fin 64) :
    k0_pay3 (F := Ideal) x0 x1 x2 x4 (ix2 r q) = lin (norm (rowOf x0 r) (vecOf x1) (vecOf x2)) (matOf x4) q := by
  unfold k0_pay3
  refine (Cert.LibMatmulSum.matmul_zero_at dot_plain none (k0_pay1 (F := Ideal) x0 x1 x2) x4 r q).trans ?_
  exact Finset.sum_congr rfl fun k _ => congrArg (· * x4 (ix2 k q)) (normalised_at x0 x1 x2 r k)

/-- So each product, as a block, is `xform` of the block. -/
theorem first_eq (x0 : FVec Ideal S5000x64 .f32) (x1 x2 : FVec Ideal S64 .f32) (x3 : FVec Ideal S64x64 .f32) :
    k0_pay2 (F := Ideal) x0 x1 x2 x3 = xform (n := 5000) x0 x1 x2 x3 := by
  funext j
  obtain ⟨r, q, rfl⟩ : ∃ (r : Fin 5000) (q : Fin 64), j = ix2 r q := ⟨j 0, j 1, eq_ix2 j⟩
  exact first_at x0 x1 x2 x3 r q

theorem second_eq (x0 : FVec Ideal S5000x64 .f32) (x1 x2 : FVec Ideal S64 .f32) (x4 : FVec Ideal S64x64 .f32) :
    k0_pay3 (F := Ideal) x0 x1 x2 x4 = xform (n := 5000) x0 x1 x2 x4 := by
  funext j
  obtain ⟨r, q, rfl⟩ : ∃ (r : Fin 5000) (q : Fin 64), j = ix2 r q := ⟨j 0, j 1, eq_ix2 j⟩
  exact second_at x0 x1 x2 x4 r q

end Cert.KernelIdeal.Rows

end
-- ==== Proof.Blocks0.lean ====
/-
  From blocks to arrays, first dense stage.

  The stage runs over 20 grid points. At point t every window that moves holds rows 5000 t ... 5000 t + 4999 of its
  array (block index t along the rows, 0 along the features); the scale, the shift and the two matrices are whole at
  every point. What point t writes back to either result is therefore block t of `xform` of the whole operand arrays,
  because an entry of `xform` depends on its own row only. The 20 blocks tile the 100000 rows (row i lies in block
  i / 5000), so each result array ends as `xform` of the arrays the stage found, whatever those were.
-/
import proofs.«140525_j10986526343306_1_alg».proof.Proof.Gen.KernelIdeal.Frame
import proofs.«140525_j10986526343306_1_alg».proof.Proof.Body0

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.RowMath Cert.ArrMath
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps of the first stage, decided over its 20 points: the rows' windows sit at block t, the
    others at block 0. -/
theorem idx0 : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The input rows' block at point t is rows 5000 t ... of the array the stage found. -/
theorem rows0_apply (c : Dev nD) (t : Fin cfg0.N) (x : S5000x64.Idx) (k : S100000x64.Idx)
    (hk0 : (k 0).val = 5000 * t.val + (x 0).val) (hk1 : (k 1).val = (x 1).val) :
    (iblk0 V c 0 t : Vec Ideal S5000x64 .f32) x = (V c main_arg1 : S100000x64.Idx → Elt Ideal .f32) k := by
  obtain ⟨e0, e1, -⟩ := idx0 t
  unfold iblk0
  rw [View.read_apply]
  show V c main_arg1 _ = V c main_arg1 _
  refine congrArg (V c main_arg1) (funext fun a => Fin.ext ?_)
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The scale's block is the whole scale. -/
theorem scale0_apply (c : Dev nD) (t : Fin cfg0.N) (x : S64.Idx) :
    (iblk0 V c 1 t : Vec Ideal S64 .f32) x = (V c main_arg4 : S64.Idx → Elt Ideal .f32) x := by
  obtain ⟨-, -, e, -⟩ := idx0 t
  unfold iblk0
  rw [View.read_apply]
  show V c main_arg4 _ = V c main_arg4 _
  refine congrArg (V c main_arg4) (funext fun a => Fin.ext ?_)
  match a with
  | ⟨0, _⟩ => show win0_1.index t 0 * 64 + 1 * (x 0).val = (x 0).val; rw [e]; omega

/-- The shift's block is the whole shift. -/
theorem shift0_apply (c : Dev nD) (t : Fin cfg0.N) (x : S64.Idx) :
    (iblk0 V c 2 t : Vec Ideal S64 .f32) x = (V c main_arg5 : S64.Idx → Elt Ideal .f32) x := by
  obtain ⟨-, -, -, e, -⟩ := idx0 t
  unfold iblk0
  rw [View.read_apply]
  show V c main_arg5 _ = V c main_arg5 _
  refine congrArg (V c main_arg5) (funext fun a => Fin.ext ?_)
  match a with
  | ⟨0, _⟩ => show win0_2.index t 0 * 64 + 1 * (x 0).val = (x 0).val; rw [e]; omega

/-- The first matrix's block is the whole matrix. -/
theorem mat0_3_apply (c : Dev nD) (t : Fin cfg0.N) (x : S64x64.Idx) :
    (iblk0 V c 3 t : Vec Ideal S64x64 .f32) x = (V c main_arg6 : S64x64.Idx → Elt Ideal .f32) x := by
  obtain ⟨-, -, -, -, e0, e1, -⟩ := idx0 t
  unfold iblk0
  rw [View.read_apply]
  show V c main_arg6 _ = V c main_arg6 _
  refine congrArg (V c main_arg6) (funext fun a => Fin.ext ?_)
  match a with
  | ⟨0, _⟩ => show win0_3.index t 0 * 64 + 1 * (x 0).val = (x 0).val; rw [e0]; omega
  | ⟨1, _⟩ => show win0_3.index t 1 * 64 + 1 * (x 1).val = (x 1).val; rw [e1]; omega

/-- The second matrix's block is the whole matrix. -/
theorem mat0_4_apply (c : Dev nD) (t : Fin cfg0.N) (x : S64x64.Idx) :
    (iblk0 V c 4 t : Vec Ideal S64x64 .f32) x = (V c main_arg8 : S64x64.Idx → Elt Ideal .f32) x := by
  obtain ⟨-, -, -, -, -, -, e0, e1, -⟩ := idx0 t
  unfold iblk0
  rw [View.read_apply]
  show V c main_arg8 _ = V c main_arg8 _
  refine congrArg (V c main_arg8) (funext fun a => Fin.ext ?_)
  match a with
  | ⟨0, _⟩ => show win0_4.index t 0 * 64 + 1 * (x 0).val = (x 0).val; rw [e0]; omega
  | ⟨1, _⟩ => show win0_4.index t 1 * 64 + 1 * (x 1).val = (x 1).val; rw [e1]; omega

/-- The first result, as a whole array, of the arrays the stage found. -/
abbrev first (c : Dev nD) : S100000x64.Idx → Elt Ideal .f32 :=
  xform (n := 100000) (V c main_arg1 : S100000x64.Idx → Elt Ideal .f32) (V c main_arg4 : S64.Idx → Elt Ideal .f32)
    (V c main_arg5 : S64.Idx → Elt Ideal .f32) (V c main_arg6 : S64x64.Idx → Elt Ideal .f32)

/-- The second result, as a whole array, of the arrays the stage found. -/
abbrev second (c : Dev nD) : S100000x64.Idx → Elt Ideal .f32 :=
  xform (n := 100000) (V c main_arg1 : S100000x64.Idx → Elt Ideal .f32) (V c main_arg4 : S64.Idx → Elt Ideal .f32)
    (V c main_arg5 : S64.Idx → Elt Ideal .f32) (V c main_arg8 : S64x64.Idx → Elt Ideal .f32)

/-- What point t writes back to the first result is block t of `first`. -/
theorem flushed5_eq (c : Dev nD) (t : Fin cfg0.N) :
    (dat0 V c).flushed 5 t = ((cfg0.win 5).blk t).view.read (Elt Ideal) (first V c) := by
  show (cfg0.win 5).cut (grid0.coords t) ((dat0 V c).after 5 t) = _
  rw [after0_5]
  unfold out0_5
  rw [View.canon_unit_zero zero2]
  simp only [View.ld_unit_zero (S := S5000x64) zero2, View.ld_unit_zero (S := S64) zero1, View.ld_unit_zero (S := S64x64) zero2]
  rw [Rows.first_eq]
  obtain ⟨-, -, -, -, -, -, -, -, e0, e1, -⟩ := idx0 t
  funext y
  obtain ⟨r, q, rfl⟩ : ∃ (r : Fin 5000) (q : Fin 64), y = ix2 r q := ⟨y 0, y 1, eq_ix2 y⟩
  have hr : 5000 * t.val + r.val < 100000 := by
    have ht : t.val < 20 := lt_of_lt_of_eq t.isLt N_0
    have := r.isLt; omega
  have hemb : ((cfg0.win 5).blk t).view.emb (ix2 r q) = ix2 (⟨5000 * t.val + r.val, hr⟩ : Fin 100000) q := by
    funext a; apply Fin.ext
    match a with
    | ⟨0, _⟩ => show win0_5.index t 0 * 5000 + 1 * r.val = 5000 * t.val + r.val; rw [e0]; omega
    | ⟨1, _⟩ => show win0_5.index t 1 * 64 + 1 * q.val = q.val; rw [e1]; omega
  rw [View.read_apply, hemb]
  exact xform_congr _ _ _ _ _ _ _ _ r ⟨5000 * t.val + r.val, hr⟩ q
    (fun k => rows0_apply V c t (ix2 r k) (ix2 ⟨5000 * t.val + r.val, hr⟩ k) rfl rfl)
    (fun k => scale0_apply V c t (ix1 k)) (fun k => shift0_apply V c t (ix1 k)) (fun k q => mat0_3_apply V c t (ix2 k q))

/-- What point t writes back to the second result is block t of `second`. -/
theorem flushed6_eq (c : Dev nD) (t : Fin cfg0.N) :
    (dat0 V c).flushed 6 t = ((cfg0.win 6).blk t).view.read (Elt Ideal) (second V c) := by
  show (cfg0.win 6).cut (grid0.coords t) ((dat0 V c).after 6 t) = _
  rw [after0_6]
  unfold out0_6
  rw [View.canon_unit_zero zero2]
  simp only [View.ld_unit_zero (S := S5000x64) zero2, View.ld_unit_zero (S := S64) zero1, View.ld_unit_zero (S := S64x64) zero2]
  rw [Rows.second_eq]
  obtain ⟨-, -, -, -, -, -, -, -, -, -, e0, e1⟩ := idx0 t
  funext y
  obtain ⟨r, q, rfl⟩ : ∃ (r : Fin 5000) (q : Fin 64), y = ix2 r q := ⟨y 0, y 1, eq_ix2 y⟩
  have hr : 5000 * t.val + r.val < 100000 := by
    have ht : t.val < 20 := lt_of_lt_of_eq t.isLt N_0
    have := r.isLt; omega
  have hemb : ((cfg0.win 6).blk t).view.emb (ix2 r q) = ix2 (⟨5000 * t.val + r.val, hr⟩ : Fin 100000) q := by
    funext a; apply Fin.ext
    match a with
    | ⟨0, _⟩ => show win0_6.index t 0 * 5000 + 1 * r.val = 5000 * t.val + r.val; rw [e0]; omega
    | ⟨1, _⟩ => show win0_6.index t 1 * 64 + 1 * q.val = q.val; rw [e1]; omega
  rw [View.read_apply, hemb]
  exact xform_congr _ _ _ _ _ _ _ _ r ⟨5000 * t.val + r.val, hr⟩ q
    (fun k => rows0_apply V c t (ix2 r k) (ix2 ⟨5000 * t.val + r.val, hr⟩ k) rfl rfl)
    (fun k => scale0_apply V c t (ix1 k)) (fun k => shift0_apply V c t (ix1 k)) (fun k q => mat0_4_apply V c t (ix2 k q))

/-- Row i of the first result lies in the block of point i / 5000. -/
theorem cover5 (i : S100000x64.Idx) : ∃ t : Fin cfg0.N, (cfg0.win 5).flush t = true ∧ i ∈ ((cfg0.win 5).blk t).view.set := by
  have h0 : (i 0).val < 100000 := (i 0).isLt
  have h1 : (i 1).val < 64 := (i 1).isLt
  let t : Fin cfg0.N := ⟨(i 0).val / 5000, by rw [show cfg0.N = 20 from N_0]; omega⟩
  obtain ⟨-, -, -, -, -, -, -, -, e0, e1, -⟩ := idx0 t
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 5000 ≤ (i 0).val ∧ (i 0).val < win0_5.index t 0 * 5000 + 5000
    rw [e0]; show (i 0).val / 5000 * 5000 ≤ (i 0).val ∧ (i 0).val < (i 0).val / 5000 * 5000 + 5000; omega
  | ⟨1, _⟩ =>
    show win0_5.index t 1 * 64 ≤ (i 1).val ∧ (i 1).val < win0_5.index t 1 * 64 + 64
    rw [e1]; omega

/-- Row i of the second result lies in the block of point i / 5000. -/
theorem cover6 (i : S100000x64.Idx) : ∃ t : Fin cfg0.N, (cfg0.win 6).flush t = true ∧ i ∈ ((cfg0.win 6).blk t).view.set := by
  have h0 : (i 0).val < 100000 := (i 0).isLt
  have h1 : (i 1).val < 64 := (i 1).isLt
  let t : Fin cfg0.N := ⟨(i 0).val / 5000, by rw [show cfg0.N = 20 from N_0]; omega⟩
  obtain ⟨-, -, -, -, -, -, -, -, -, -, e0, e1⟩ := idx0 t
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 5000 ≤ (i 0).val ∧ (i 0).val < win0_6.index t 0 * 5000 + 5000
    rw [e0]; show (i 0).val / 5000 * 5000 ≤ (i 0).val ∧ (i 0).val < (i 0).val / 5000 * 5000 + 5000; omega
  | ⟨1, _⟩ =>
    show win0_6.index t 1 * 64 ≤ (i 1).val ∧ (i 1).val < win0_6.index t 1 * 64 + 64
    rw [e1]; omega

/-- The first result array after the stage. -/
theorem final5 (c : Dev nD) : (dat0 V c).arrAt 5 cfg0.N = first V c :=
  (dat0 V c).arrAt_eq_of_cover 5 (first V c) (fun t _ => flushed5_eq V c t) cover5

/-- The second result array after the stage. -/
theorem final6 (c : Dev nD) : (dat0 V c).arrAt 6 cfg0.N = second V c :=
  (dat0 V c).arrAt_eq_of_cover 6 (second V c) (fun t _ => flushed6_eq V c t) cover6

end Cert.KernelIdeal.Blocks

end
-- ==== Proof.Body1.lean ====
/-
  What the second dense stage computes on one block of 5000 rows, entry by entry.

  Each of the two input blocks is sent through its 64 x 64 matrix, its bias (a vector of 64 features repeated along the
  rows) is added, the two images are added, and the sum is clipped: first raised to the lower bound, then lowered to the
  upper bound. Entry (r, q) is `fuse` of row r of the two blocks at feature q.
-/
import proofs.«140525_j10986526343306_1_alg».proof.Proof.Gen.KernelIdeal.Skeleton
import proofs.«140525_j10986526343306_1_alg».proof.Proof.ArrMath
import proofs.«140525_j10986526343306_1_alg».proof.Proof.LibMatmulSum
import proofs.«140525_j10986526343306_1_alg».proof.Proof.Body0
import Idealize.ShloMosaic.Lib.ValueLayout
import Idealize.ShloMosaic.PureOps.Ideal.Laws

noncomputable section

namespace Cert.KernelIdeal.Rows

open Idealize.ShloMosaic Idealize.ShloMosaic.ValueIdx Cert.KernelIdeal Cert.KernelIdeal.Gen Cert.RowMath Cert.ArrMath

/-- A block through a matrix (into a zero accumulator), at entry (r, q). -/
theorem through_at (v : FVec Ideal S5000x64 .f32) (W : FVec Ideal S64x64 .f32) (r : Fin 5000) (q : Fin 64) :
    matmul dot_S5000x64_S64x64_S5000x64_1_0_0_1_n_n none v W (constant S5000x64 .f32 0x00000000#32) (ix2 r q)
      = lin (rowOf v r) (matOf W) q :=
  Cert.LibMatmulSum.matmul_zero_at dot_plain none v W r q

/-- The fused block at entry (r, q). -/
theorem fused_at (x0 x1 : FVec Ideal S5000x64 .f32) (x2 : FVec Ideal S64x64 .f32) (x3 : FVec Ideal S64 .f32)
    (x4 : FVec Ideal S64x64 .f32) (x5 : FVec Ideal S64 .f32) (r : Fin 5000) (q : Fin 64) :
    k1_pay1 (F := Ideal) x0 x1 x2 x3 x4 x5 (ix2 r q)
      = fuse (rowOf x0 r) (rowOf x1 r) (matOf x2) (vecOf x3) (matOf x4) (vecOf x5) q := by
  simp only [k1_pay1, shapeCast_self, minimumf_apply, maximumf_apply, addf_apply, broadcast_apply,
    broadcastTo_1b_ab_apply, shapeCast_a_1a_apply, through_at]
  rfl

/-- So the stage's result, as a block, is `fused` of the blocks. -/
theorem fused_eq (x0 x1 : FVec Ideal S5000x64 .f32) (x2 : FVec Ideal S64x64 .f32) (x3 : FVec Ideal S64 .f32)
    (x4 : FVec Ideal S64x64 .f32) (x5 : FVec Ideal S64 .f32) :
    k1_pay1 (F := Ideal) x0 x1 x2 x3 x4 x5 = fused (n := 5000) x0 x1 x2 x3 x4 x5 := by
  funext j
  obtain ⟨r, q, rfl⟩ : ∃ (r : Fin 5000) (q : Fin 64), j = ix2 r q := ⟨j 0, j 1, eq_ix2 j⟩
  exact fused_at x0 x1 x2 x3 x4 x5 r q

end Cert.KernelIdeal.Rows

end
-- ==== Proof.Blocks1.lean ====
/-
  From blocks to arrays, second dense stage.

  Again 20 grid points; at point t the two aggregated arrays and the result are at rows 5000 t ... 5000 t + 4999, the two
  matrices and the two biases whole. An entry of `fused` depends on its own row of the two arrays only, so what point t
  writes back is block t of `fused` of the whole operand arrays, and the 20 blocks tile the 100000 rows: the result
  array ends as `fused` of the arrays the stage found.
-/
import proofs.«140525_j10986526343306_1_alg».proof.Proof.Gen.KernelIdeal.Frame
import proofs.«140525_j10986526343306_1_alg».proof.Proof.Body1
import proofs.«140525_j10986526343306_1_alg».proof.Proof.Blocks0

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.RowMath Cert.ArrMath
open Idealize.ShloMosaic.Pipeline (Dat)

variable (V : (c : Dev nD) → (b : Ref sig .tc) → Buf (Elt Ideal) ((c : Thread nD τ).loc b))

/-- The printed index maps of the second stage, decided over its 20 points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The first aggregated array's block at point t is its rows 5000 t ... . -/
theorem rows1_0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v48 : S100000x64.Idx → Elt Ideal .f32) k := by
  obtain ⟨e0, e1, -⟩ := idx1 t
  unfold iblk1
  rw [View.read_apply]
  show V c main_v48 _ = V c main_v48 _
  refine congrArg (V c main_v48) (funext fun a => Fin.ext ?_)
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The second aggregated array's block at point t is its rows 5000 t ... . -/
theorem rows1_1_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v96 : S100000x64.Idx → Elt Ideal .f32) k := by
  obtain ⟨-, -, e0, e1, -⟩ := idx1 t
  unfold iblk1
  rw [View.read_apply]
  show V c main_v96 _ = V c main_v96 _
  refine congrArg (V c main_v96) (funext fun a => Fin.ext ?_)
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- The first matrix's block is the whole matrix. -/
theorem mat1_2_apply (c : Dev nD) (t : Fin cfg1.N) (x : S64x64.Idx) :
    (iblk1 V c 2 t : Vec Ideal S64x64 .f32) x = (V c main_arg10 : S64x64.Idx → Elt Ideal .f32) x := by
  obtain ⟨-, -, -, -, e0, e1, -⟩ := idx1 t
  unfold iblk1
  rw [View.read_apply]
  show V c main_arg10 _ = V c main_arg10 _
  refine congrArg (V c main_arg10) (funext fun a => Fin.ext ?_)
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The first bias's block is the whole bias. -/
theorem bias1_3_apply (c : Dev nD) (t : Fin cfg1.N) (x : S64.Idx) :
    (iblk1 V c 3 t : Vec Ideal S64 .f32) x = (V c main_arg11 : S64.Idx → Elt Ideal .f32) x := by
  obtain ⟨-, -, -, -, -, -, e, -⟩ := idx1 t
  unfold iblk1
  rw [View.read_apply]
  show V c main_arg11 _ = V c main_arg11 _
  refine congrArg (V c main_arg11) (funext fun a => Fin.ext ?_)
  match a with
  | ⟨0, _⟩ => show win1_3.index t 0 * 64 + 1 * (x 0).val = (x 0).val; rw [e]; omega

/-- The second matrix's block is the whole matrix. -/
theorem mat1_4_apply (c : Dev nD) (t : Fin cfg1.N) (x : S64x64.Idx) :
    (iblk1 V c 4 t : Vec Ideal S64x64 .f32) x = (V c main_arg12 : S64x64.Idx → Elt Ideal .f32) x := by
  obtain ⟨-, -, -, -, -, -, -, e0, e1, -⟩ := idx1 t
  unfold iblk1
  rw [View.read_apply]
  show V c main_arg12 _ = V c main_arg12 _
  refine congrArg (V c main_arg12) (funext fun a => Fin.ext ?_)
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- The second bias's block is the whole bias. -/
theorem bias1_5_apply (c : Dev nD) (t : Fin cfg1.N) (x : S64.Idx) :
    (iblk1 V c 5 t : Vec Ideal S64 .f32) x = (V c main_arg13 : S64.Idx → Elt Ideal .f32) x := by
  obtain ⟨-, -, -, -, -, -, -, -, -, e, -⟩ := idx1 t
  unfold iblk1
  rw [View.read_apply]
  show V c main_arg13 _ = V c main_arg13 _
  refine congrArg (V c main_arg13) (funext fun a => Fin.ext ?_)
  match a with
  | ⟨0, _⟩ => show win1_5.index t 0 * 64 + 1 * (x 0).val = (x 0).val; rw [e]; omega

/-- The stage's result, as a whole array, of the arrays the stage found. -/
abbrev combined (c : Dev nD) : S100000x64.Idx → Elt Ideal .f32 :=
  fused (n := 100000) (V c main_v48 : S100000x64.Idx → Elt Ideal .f32) (V c main_v96 : S100000x64.Idx → Elt Ideal .f32)
    (V c main_arg10 : S64x64.Idx → Elt Ideal .f32) (V c main_arg11 : S64.Idx → Elt Ideal .f32)
    (V c main_arg12 : S64x64.Idx → Elt Ideal .f32) (V c main_arg13 : S64.Idx → Elt Ideal .f32)

/-- What point t writes back is block t of `combined`. -/
theorem flushed1_eq (c : Dev nD) (t : Fin cfg1.N) :
    (dat1 V c).flushed 6 t = ((cfg1.win 6).blk t).view.read (Elt Ideal) (combined V c) := by
  show (cfg1.win 6).cut (grid1.coords t) ((dat1 V c).after 6 t) = _
  rw [after1_6]
  unfold out1_6
  rw [View.canon_unit_zero zero2]
  simp only [View.ld_unit_zero (S := S5000x64) zero2, View.ld_unit_zero (S := S64) zero1, View.ld_unit_zero (S := S64x64) zero2]
  rw [Rows.fused_eq]
  obtain ⟨-, -, -, -, -, -, -, -, -, -, e0, e1⟩ := idx1 t
  funext y
  obtain ⟨r, q, rfl⟩ : ∃ (r : Fin 5000) (q : Fin 64), y = ix2 r q := ⟨y 0, y 1, eq_ix2 y⟩
  have hr : 5000 * t.val + r.val < 100000 := by
    have ht : t.val < 20 := lt_of_lt_of_eq t.isLt N_1
    have := r.isLt; omega
  have hemb : ((cfg1.win 6).blk t).view.emb (ix2 r q) = ix2 (⟨5000 * t.val + r.val, hr⟩ : Fin 100000) q := by
    funext a; apply Fin.ext
    match a with
    | ⟨0, _⟩ => show win1_6.index t 0 * 5000 + 1 * r.val = 5000 * t.val + r.val; rw [e0]; omega
    | ⟨1, _⟩ => show win1_6.index t 1 * 64 + 1 * q.val = q.val; rw [e1]; omega
  rw [View.read_apply, hemb]
  exact fused_congr _ _ _ _ _ _ _ _ _ _ _ _ r ⟨5000 * t.val + r.val, hr⟩ q
    (fun k => rows1_0_apply V c t (ix2 r k) (ix2 ⟨5000 * t.val + r.val, hr⟩ k) rfl rfl)
    (fun k => rows1_1_apply V c t (ix2 r k) (ix2 ⟨5000 * t.val + r.val, hr⟩ k) rfl rfl)
    (fun k q => mat1_2_apply V c t (ix2 k q)) (fun k => bias1_3_apply V c t (ix1 k))
    (fun k q => mat1_4_apply V c t (ix2 k q)) (fun k => bias1_5_apply V c t (ix1 k))

/-- Row i of the result lies in the block of point i / 5000. -/
theorem cover1 (i : S100000x64.Idx) : ∃ t : Fin cfg1.N, (cfg1.win 6).flush t = true ∧ i ∈ ((cfg1.win 6).blk t).view.set := by
  have h0 : (i 0).val < 100000 := (i 0).isLt
  have h1 : (i 1).val < 64 := (i 1).isLt
  let t : Fin cfg1.N := ⟨(i 0).val / 5000, by rw [show cfg1.N = 20 from N_1]; omega⟩
  obtain ⟨-, -, -, -, -, -, -, -, -, -, e0, e1⟩ := idx1 t
  refine ⟨t, flush1_6 t, ?_⟩
  show i ∈ ((View.whole main_v97).slice (win1_6.rect t)).set
  rw [View.set_slice_whole, Rect.mem_set_unit]
  intro a
  match a with
  | ⟨0, _⟩ =>
    show win1_6.index t 0 * 5000 ≤ (i 0).val ∧ (i 0).val < win1_6.index t 0 * 5000 + 5000
    rw [e0]; show (i 0).val / 5000 * 5000 ≤ (i 0).val ∧ (i 0).val < (i 0).val / 5000 * 5000 + 5000; omega
  | ⟨1, _⟩ =>
    show win1_6.index t 1 * 64 ≤ (i 1).val ∧ (i 1).val < win1_6.index t 1 * 64 + 64
    rw [e1]; omega

/-- The result array after the stage. -/
theorem final1 (c : Dev nD) : (dat1 V c).arrAt 6 cfg1.N = combined V c :=
  (dat1 V c).arrAt_eq_of_cover 6 (combined V c) (fun t _ => flushed1_eq V c t) cover1

end Cert.KernelIdeal.Blocks

end
-- ==== Proof.Graph.lean ====
/-
  The sparse stage: symmetric-normalised aggregation over a graph with self-loops, as ONE function.

  From the 2 x 1000000 edge list: the sources (row 0) and the destinations (row 1), each followed by the 100000 self-loops
  0, 1, ..., 99999. The degree of a node is the number of edges arriving at it (a scatter-add of ones); its weight is the
  reciprocal square root of the degree raised to at least one where the degree is positive, and zero elsewhere. An
  edge's coefficient is the product of the weights of its two ends (negative node numbers are taken from the end of the
  array); its message is the coefficient times the source node's 64 features; the messages are scatter-added at the
  destinations and the bias is added to every row.

  Both programs apply exactly these operations to their transformed features, so nothing below is ever opened: the
  certificate only needs that the two programs feed this function equal arguments.
-/
import proofs.«140525_j10986526343306_1_alg».proof.Proof.Gen.KernelIdeal

noncomputable section

namespace Cert.KernelIdeal.Graph

open Idealize.ShloMosaic Cert.KernelIdeal Cert.KernelIdeal.Facts₀

variable {F : FTy → Type} [FloatOps F]

/-- A vector of 1000000 node numbers followed by one of 100000: the two joined end to end. -/
def joined (a : (⟨S1000000, .i32⟩ : BufTy).Contents (Elt F)) (b : (⟨S100000, .i32⟩ : BufTy).Contents (Elt F)) :
    (⟨S1100000, .i32⟩ : BufTy).Contents (Elt F) :=
  concatenate S1100000 0 [⟨S1000000, a⟩, ⟨S100000, b⟩] concatenates_S1000000_S100000_S1100000_d0

/-- The joining, spelt as the concatenation of the two pieces along their one axis. -/
theorem joined_def (a : (⟨S1000000, .i32⟩ : BufTy).Contents (Elt F)) (b : (⟨S100000, .i32⟩ : BufTy).Contents (Elt F)) :
    concatenate S1100000 0 [⟨S1000000, a⟩, ⟨S100000, b⟩] concatenates_S1000000_S100000_S1100000_d0 = joined (F := F) a b := rfl

/-- The edges' sources followed by the self-loops. -/
def sources (ei : (⟨S2x1000000, .i32⟩ : BufTy).Contents (Elt F)) : (⟨S1100000, .i32⟩ : BufTy).Contents (Elt F) :=
  joined (F := F) (shapeCast _ (extractStridedSlice S1x1000000 ![0, 0] ei slices_S2x1000000_S1x1000000_0_0) shapeCasts_S1x1000000_S1000000) (iotaInDim S100000 32 0)

/-- The edges' destinations followed by the self-loops. -/
def targets (ei : (⟨S2x1000000, .i32⟩ : BufTy).Contents (Elt F)) : (⟨S1100000, .i32⟩ : BufTy).Contents (Elt F) :=
  joined (F := F) (shapeCast _ (extractStridedSlice S1x1000000 ![1, 0] ei slices_S2x1000000_S1x1000000_1_0) shapeCasts_S1x1000000_S1000000) (iotaInDim S100000 32 0)

/-- A negative node number counts from the end of the 100000 nodes. -/
def wrap (v : (⟨S1100000, .i32⟩ : BufTy).Contents (Elt F)) : (⟨S1100000, .i32⟩ : BufTy).Contents (Elt F) :=
  select (cmpi .slt v (broadcastInDim S1100000 ![] bcast_S_S1100000 (constantI S_ 32 0#32))) (addi v (broadcastInDim S1100000 ![] bcast_S_S1100000 (constantI S_ 32 100000#32))) v

/-- The number of edges arriving at each node, from the list of the edges' destinations: ones scatter-added. -/
def degreeOf (dst : (⟨S1100000, .i32⟩ : BufTy).Contents (Elt F)) : (⟨S100000, .f32⟩ : BufTy).Contents (Elt F) :=
  Host.scatterAdd scatter_S100000_S1100000x1_S1100000_n_0_0_1 (broadcastInDim S100000 ![] bcast_S_S100000 (constant S_ .f32 0x00000000#32)) (broadcastInDim S1100000x1 ![0] bcast_S1100000_S1100000x1_0 dst) (broadcastInDim S1100000 ![] bcast_S_S1100000 (constant S_ .f32 0x3F800000#32))

/-- The number of edges arriving at each node. -/
def degree (ei : (⟨S2x1000000, .i32⟩ : BufTy).Contents (Elt F)) : (⟨S100000, .f32⟩ : BufTy).Contents (Elt F) :=
  degreeOf (F := F) (targets (F := F) ei)

/-- Where a degree is positive. -/
def positive (d : (⟨S100000, .f32⟩ : BufTy).Contents (Elt F)) : (⟨S100000, .i1⟩ : BufTy).Contents (Elt F) :=
  cmpf (F := F) .ogt d (broadcastInDim S100000 ![] bcast_S_S100000 (constant S_ .f32 0x00000000#32))

/-- The reciprocal square root of a degree raised to at least one. -/
def invRoot (d : (⟨S100000, .f32⟩ : BufTy).Contents (Elt F)) : (⟨S100000, .f32⟩ : BufTy).Contents (Elt F) :=
  Host.rsqrt (maximumf d (broadcastInDim S100000 ![] bcast_S_S100000 (constant S_ .f32 0x3F800000#32)))

/-- The scalar put where the degree is not positive: zero. -/
def zeroScalar : (⟨S_, .f32⟩ : BufTy).Contents (Elt F) := constant S_ .f32 0x00000000#32

/-- Node by node: `r` where the mask `p` holds, the scalar `z` elsewhere. -/
def pick (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- Each node's weight. -/
def weight (ei : (⟨S2x1000000, .i32⟩ : BufTy).Contents (Elt F)) : (⟨S100000, .f32⟩ : BufTy).Contents (Elt F) :=
  pick (F := F) (positive (F := F) (degree (F := F) ei)) (invRoot (F := F) (degree (F := F) ei)) (zeroScalar (F := F))

/-- Each edge's coefficient, from the nodes' weights and the edges' two ends: the product of the ends' weights. -/
def coefOf (w : (⟨S100000, .f32⟩ : BufTy).Contents (Elt F)) (src dst : (⟨S1100000, .i32⟩ : BufTy).Contents (Elt F)) :
    (⟨S1100000, .f32⟩ : BufTy).Contents (Elt F) :=
  mulf (Host.gather gather_S100000_S1100000x1_S1100000_n_0_n_n_0_1_1 w (broadcastInDim S1100000x1 ![0] bcast_S1100000_S1100000x1_0 (wrap (F := F) src))) (Host.gather gather_S100000_S1100000x1_S1100000_n_0_n_n_0_1_1 w (broadcastInDim S1100000x1 ![0] bcast_S1100000_S1100000x1_0 (wrap (F := F) dst)))

/-- Each edge's coefficient. -/
def coefficient (ei : (⟨S2x1000000, .i32⟩ : BufTy).Contents (Elt F)) : (⟨S1100000, .f32⟩ : BufTy).Contents (Elt F) :=
  coefOf (F := F) (weight (F := F) ei) (sources (F := F) ei) (targets (F := F) ei)

/-- The messages (coefficient times the source's features) scatter-added at the destinations, plus the bias:
    from the features, the weights, the edges' two ends and the bias. -/
def combine (x : (⟨S100000x64, .f32⟩ : BufTy).Contents (Elt F)) (w : (⟨S100000, .f32⟩ : BufTy).Contents (Elt F))
    (src dst : (⟨S1100000, .i32⟩ : BufTy).Contents (Elt F)) (b : (⟨S64, .f32⟩ : BufTy).Contents (Elt F)) :
    (⟨S100000x64, .f32⟩ : BufTy).Contents (Elt F) :=
  addf (Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 dst) (mulf (broadcastInDim S1100000x64 ![0, 1] bcast_S1100000x1_S1100000x64_0_1 (broadcastInDim S1100000x1 ![0] bcast_S1100000_S1100000x1_0 (coefOf (F := F) w src dst))) (Host.gather gather_S100000x64_S1100000x1_S1100000x64_1_0_n_n_0_1_164 x (broadcastInDim S1100000x1 ![0] bcast_S1100000_S1100000x1_0 (wrap (F := F) src))))) (broadcastInDim S100000x64 ![0, 1] bcast_S1x64_S100000x64_0_1 (broadcastInDim S1x64 ![1] bcast_S64_S1x64_1 b))

/-- The aggregation of the features `x` over the graph `ei`, plus the bias `b`. -/
def aggregate (x : (⟨S100000x64, .f32⟩ : BufTy).Contents (Elt F)) (ei : (⟨S2x1000000, .i32⟩ : BufTy).Contents (Elt F))
    (b : (⟨S64, .f32⟩ : BufTy).Contents (Elt F)) : (⟨S100000x64, .f32⟩ : BufTy).Contents (Elt F) :=
  combine (F := F) x (weight (F := F) ei) (sources (F := F) ei) (targets (F := F) ei) b

end Cert.KernelIdeal.Graph

end
-- ==== Proof.KernelValue.lean ====
/-
  The kernel's result as one function of its arguments.

  The program runs the first dense stage, then the host operations that aggregate each of its two results over a graph,
  then the second dense stage. Reading the buffers along that chain: after the first stage its two result arrays hold
  `xform` of the features with the first and the second matrix; the host operations leave, in the two buffers the second
  stage reads, `aggregate` of those arrays over the two edge lists with the two biases, and leave every argument as
  launched; the second stage's result array ends as `fused` of what it found. Composed, the result is `result` below,
  and every weakly fair execution ends with the result buffer at it and the arguments unchanged.
-/
import proofs.«140525_j10986526343306_1_alg».proof.Proof.Gen.KernelIdeal.Frame
import proofs.«140525_j10986526343306_1_alg».proof.Proof.Blocks0
import proofs.«140525_j10986526343306_1_alg».proof.Proof.Blocks1
import proofs.«140525_j10986526343306_1_alg».proof.Proof.Graph

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.ArrMath

local notation "𝕄" => MT nD τ sig Unit (Elt Ideal) ℕ (UR sig nD τ) ℕ

variable (m : (ℓ : Loc nD τ sig) → Buf (Elt Ideal) ℓ) (ρ : Dev nD → PrngReg)

/-- The transformed features with the first matrix, of the launch contents. -/
abbrev xPos (c : Dev nD) : S100000x64.Idx → Elt Ideal .f32 :=
  xform (n := 100000) (m ((c : Thread nD τ).loc main_arg1) : S100000x64.Idx → Elt Ideal .f32) (m ((c : Thread nD τ).loc main_arg4) : S64.Idx → Elt Ideal .f32) (m ((c : Thread nD τ).loc main_arg5) : S64.Idx → Elt Ideal .f32) (m ((c : Thread nD τ).loc main_arg6) : S64x64.Idx → Elt Ideal .f32)

/-- The transformed features with the second matrix, of the launch contents. -/
abbrev xNeg (c : Dev nD) : S100000x64.Idx → Elt Ideal .f32 :=
  xform (n := 100000) (m ((c : Thread nD τ).loc main_arg1) : S100000x64.Idx → Elt Ideal .f32) (m ((c : Thread nD τ).loc main_arg4) : S64.Idx → Elt Ideal .f32) (m ((c : Thread nD τ).loc main_arg5) : S64.Idx → Elt Ideal .f32) (m ((c : Thread nD τ).loc main_arg8) : S64x64.Idx → Elt Ideal .f32)

/-- The kernel's result of its arguments: both aggregations fused. -/
def result (c : Dev nD) : S100000x64.Idx → Elt Ideal .f32 :=
  fused (n := 100000)
    (Graph.aggregate (F := Ideal) (xPos m c) (m ((c : Thread nD τ).loc main_arg2) : S2x1000000.Idx → Elt Ideal .i32) (m ((c : Thread nD τ).loc main_arg7) : S64.Idx → Elt Ideal .f32))
    (Graph.aggregate (F := Ideal) (xNeg m c) (m ((c : Thread nD τ).loc main_arg3) : S2x1000000.Idx → Elt Ideal .i32) (m ((c : Thread nD τ).loc main_arg9) : S64.Idx → Elt Ideal .f32))
    (m ((c : Thread nD τ).loc main_arg10) : S64x64.Idx → Elt Ideal .f32) (m ((c : Thread nD τ).loc main_arg11) : S64.Idx → Elt Ideal .f32) (m ((c : Thread nD τ).loc main_arg12) : S64x64.Idx → Elt Ideal .f32) (m ((c : Thread nD τ).loc main_arg13) : S64.Idx → Elt Ideal .f32)

/-! ## After the first stage -/

theorem first_result (c : Dev nD) : (W1 m ρ c (Proc.devRef .tc main_v0_0) : S100000x64.Idx → Elt Ideal .f32) = xPos m c :=
  (W1_arr m ρ c 5).trans (Blocks.final5 (V0 m ρ) c)

theorem second_result (c : Dev nD) : (W1 m ρ c (Proc.devRef .tc main_v0_1) : S100000x64.Idx → Elt Ideal .f32) = xNeg m c :=
  (W1_arr m ρ c 6).trans (Blocks.final6 (V0 m ρ) c)

theorem kept1_arg2 (c : Dev nD) : W1 m ρ c (Proc.devRef .tc main_arg2) = m ((c : Thread nD τ).loc main_arg2) :=
  W1_of_ne m ρ c main_arg2 (by decide)
theorem kept1_arg3 (c : Dev nD) : W1 m ρ c (Proc.devRef .tc main_arg3) = m ((c : Thread nD τ).loc main_arg3) :=
  W1_of_ne m ρ c main_arg3 (by decide)
theorem kept1_arg7 (c : Dev nD) : W1 m ρ c (Proc.devRef .tc main_arg7) = m ((c : Thread nD τ).loc main_arg7) :=
  W1_of_ne m ρ c main_arg7 (by decide)
theorem kept1_arg9 (c : Dev nD) : W1 m ρ c (Proc.devRef .tc main_arg9) = m ((c : Thread nD τ).loc main_arg9) :=
  W1_of_ne m ρ c main_arg9 (by decide)

/-! ## Through the host operations

The host operations between the two stages come in five stretches. Each stretch is read by itself, from ANY buffer
contents `V`: what it leaves in each buffer a later stretch or the second stage reads, as a function of what it found,
and which of those buffers it does not touch. The stretches are then chained. -/

/-- Reads a stretch of host operations at one buffer: every operation's result at its own buffer is its function of
    its operands, at any other buffer what was there; a joined pair of vectors and a reshaped vector are named on the way
    so that their pieces are read too. -/
local macro "read_stretch" : tactic => `(tactic| repeat (first
    | simp (disch := decide) only [StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', Graph.joined_def]
    | rw [Graph.joined_def]
    | rw [StableHlo.reshape_result]))

variable (V : Valuation τ sig (Elt Ideal))

set_option maxHeartbeats 4000000 in
/-- Stretch 1 leaves the first graph's sources followed by the self-loops. -/
theorem st1_sources : StableHlo.after hostOps1 V (Proc.devRef .tc main_v4) = Graph.sources (F := Ideal) (V (Proc.devRef .tc main_arg2)) := by
  simp only [hostOps1]
  read_stretch
  all_goals rfl

set_option maxHeartbeats 4000000 in
/-- Stretch 1 leaves the first graph's destinations followed by the self-loops. -/
theorem st1_targets : StableHlo.after hostOps1 V (Proc.devRef .tc main_v7) = Graph.targets (F := Ideal) (V (Proc.devRef .tc main_arg2)) := by
  simp only [hostOps1]
  read_stretch
  all_goals rfl

set_option maxHeartbeats 4000000 in
/-- Stretch 1 leaves where the first graph's degrees are positive. -/
theorem st1_positive : StableHlo.after hostOps1 V (Proc.devRef .tc main_v13) = Graph.positive (F := Ideal) (Graph.degree (F := Ideal) (V (Proc.devRef .tc main_arg2))) := by
  simp only [hostOps1]
  read_stretch
  all_goals rfl

set_option maxHeartbeats 4000000 in
/-- Stretch 1 leaves the reciprocal roots of the first graph's degrees. -/
theorem st1_invRoot : StableHlo.after hostOps1 V (Proc.devRef .tc main_v16) = Graph.invRoot (F := Ideal) (Graph.degree (F := Ideal) (V (Proc.devRef .tc main_arg2))) := by
  simp only [hostOps1]
  read_stretch
  all_goals rfl

set_option maxHeartbeats 4000000 in
/-- Stretch 1 leaves the zero scalar. -/
theorem st1_zero : StableHlo.after hostOps1 V (Proc.devRef .tc main_cst_3) = Graph.zeroScalar (F := Ideal) := by
  simp only [hostOps1]
  read_stretch
  all_goals rfl

set_option maxHeartbeats 4000000 in
/-- Stretch 2 leaves the first graph's weights: the reciprocal root where the degree is positive, zero elsewhere. -/
theorem st2_weight : StableHlo.after hostOps1_1 V (Proc.devRef .tc main_v17) = Graph.pick (F := Ideal) (V (Proc.devRef .tc main_v13)) (V (Proc.devRef .tc main_v16)) (V (Proc.devRef .tc main_cst_3)) := by
  simp only [hostOps1_1]
  read_stretch
  all_goals rfl

set_option maxHeartbeats 4000000 in
/-- Stretch 3 leaves the first aggregation, from the features, the weights, the edges' ends and the bias. -/
theorem st3_pos : StableHlo.after hostOps1_2 V (Proc.devRef .tc main_v48) = Graph.combine (F := Ideal) (V (Proc.devRef .tc main_v0_0)) (V (Proc.devRef .tc main_v17)) (V (Proc.devRef .tc main_v4)) (V (Proc.devRef .tc main_v7)) (V (Proc.devRef .tc main_arg7)) := by
  simp only [hostOps1_2]
  read_stretch
  all_goals rfl

set_option maxHeartbeats 4000000 in
/-- Stretch 3 leaves the second graph's sources followed by the self-loops. -/
theorem st3_sources : StableHlo.after hostOps1_2 V (Proc.devRef .tc main_v52) = Graph.sources (F := Ideal) (V (Proc.devRef .tc main_arg3)) := by
  simp only [hostOps1_2]
  read_stretch
  all_goals rfl

set_option maxHeartbeats 4000000 in
/-- Stretch 3 leaves the second graph's destinations followed by the self-loops. -/
theorem st3_targets : StableHlo.after hostOps1_2 V (Proc.devRef .tc main_v55) = Graph.targets (F := Ideal) (V (Proc.devRef .tc main_arg3)) := by
  simp only [hostOps1_2]
  read_stretch
  all_goals rfl

set_option maxHeartbeats 4000000 in
/-- Stretch 3 leaves where the second graph's degrees are positive. -/
theorem st3_positive : StableHlo.after hostOps1_2 V (Proc.devRef .tc main_v61) = Graph.positive (F := Ideal) (Graph.degree (F := Ideal) (V (Proc.devRef .tc main_arg3))) := by
  simp only [hostOps1_2]
  read_stretch
  all_goals rfl

set_option maxHeartbeats 4000000 in
/-- Stretch 3 leaves the reciprocal roots of the second graph's degrees. -/
theorem st3_invRoot : StableHlo.after hostOps1_2 V (Proc.devRef .tc main_v64) = Graph.invRoot (F := Ideal) (Graph.degree (F := Ideal) (V (Proc.devRef .tc main_arg3))) := by
  simp only [hostOps1_2]
  read_stretch
  all_goals rfl

set_option maxHeartbeats 4000000 in
/-- Stretch 3 leaves the zero scalar. -/
theorem st3_zero : StableHlo.after hostOps1_2 V (Proc.devRef .tc main_cst_14) = Graph.zeroScalar (F := Ideal) := by
  simp only [hostOps1_2]
  read_stretch
  all_goals rfl

set_option maxHeartbeats 4000000 in
/-- Stretch 4 leaves the second graph's weights. -/
theorem st4_weight : StableHlo.after hostOps1_3 V (Proc.devRef .tc main_v65) = Graph.pick (F := Ideal) (V (Proc.devRef .tc main_v61)) (V (Proc.devRef .tc main_v64)) (V (Proc.devRef .tc main_cst_14)) := by
  simp only [hostOps1_3]
  read_stretch
  all_goals rfl

set_option maxHeartbeats 4000000 in
/-- Stretch 5 leaves the second aggregation. -/
theorem st5_neg : StableHlo.after hostOps1_4 V (Proc.devRef .tc main_v96) = Graph.combine (F := Ideal) (V (Proc.devRef .tc main_v0_1)) (V (Proc.devRef .tc main_v65)) (V (Proc.devRef .tc main_v52)) (V (Proc.devRef .tc main_v55)) (V (Proc.devRef .tc main_arg9)) := by
  simp only [hostOps1_4]
  read_stretch
  all_goals rfl

theorem keep1_v0_0 : StableHlo.after hostOps1 V (Proc.devRef .tc main_v0_0) = V (Proc.devRef .tc main_v0_0) := by
  simp only [hostOps1]
  read_stretch
  all_goals rfl
theorem keep1_arg7 : StableHlo.after hostOps1 V (Proc.devRef .tc main_arg7) = V (Proc.devRef .tc main_arg7) := by
  simp only [hostOps1]
  read_stretch
  all_goals rfl
theorem keep1_v0_1 : StableHlo.after hostOps1 V (Proc.devRef .tc main_v0_1) = V (Proc.devRef .tc main_v0_1) := by
  simp only [hostOps1]
  read_stretch
  all_goals rfl
theorem keep1_arg3 : StableHlo.after hostOps1 V (Proc.devRef .tc main_arg3) = V (Proc.devRef .tc main_arg3) := by
  simp only [hostOps1]
  read_stretch
  all_goals rfl
theorem keep1_arg9 : StableHlo.after hostOps1 V (Proc.devRef .tc main_arg9) = V (Proc.devRef .tc main_arg9) := by
  simp only [hostOps1]
  read_stretch
  all_goals rfl
theorem keep2_v4 : StableHlo.after hostOps1_1 V (Proc.devRef .tc main_v4) = V (Proc.devRef .tc main_v4) := by
  simp only [hostOps1_1]
  read_stretch
  all_goals rfl
theorem keep2_v7 : StableHlo.after hostOps1_1 V (Proc.devRef .tc main_v7) = V (Proc.devRef .tc main_v7) := by
  simp only [hostOps1_1]
  read_stretch
  all_goals rfl
theorem keep2_v0_0 : StableHlo.after hostOps1_1 V (Proc.devRef .tc main_v0_0) = V (Proc.devRef .tc main_v0_0) := by
  simp only [hostOps1_1]
  read_stretch
  all_goals rfl
theorem keep2_arg7 : StableHlo.after hostOps1_1 V (Proc.devRef .tc main_arg7) = V (Proc.devRef .tc main_arg7) := by
  simp only [hostOps1_1]
  read_stretch
  all_goals rfl
theorem keep2_v0_1 : StableHlo.after hostOps1_1 V (Proc.devRef .tc main_v0_1) = V (Proc.devRef .tc main_v0_1) := by
  simp only [hostOps1_1]
  read_stretch
  all_goals rfl
theorem keep2_arg3 : StableHlo.after hostOps1_1 V (Proc.devRef .tc main_arg3) = V (Proc.devRef .tc main_arg3) := by
  simp only [hostOps1_1]
  read_stretch
  all_goals rfl
theorem keep2_arg9 : StableHlo.after hostOps1_1 V (Proc.devRef .tc main_arg9) = V (Proc.devRef .tc main_arg9) := by
  simp only [hostOps1_1]
  read_stretch
  all_goals rfl
theorem keep3_v0_1 : StableHlo.after hostOps1_2 V (Proc.devRef .tc main_v0_1) = V (Proc.devRef .tc main_v0_1) := by
  simp only [hostOps1_2]
  read_stretch
  all_goals rfl
theorem keep3_arg9 : StableHlo.after hostOps1_2 V (Proc.devRef .tc main_arg9) = V (Proc.devRef .tc main_arg9) := by
  simp only [hostOps1_2]
  read_stretch
  all_goals rfl
theorem keep4_v48 : StableHlo.after hostOps1_3 V (Proc.devRef .tc main_v48) = V (Proc.devRef .tc main_v48) := by
  simp only [hostOps1_3]
  read_stretch
  all_goals rfl
theorem keep4_v52 : StableHlo.after hostOps1_3 V (Proc.devRef .tc main_v52) = V (Proc.devRef .tc main_v52) := by
  simp only [hostOps1_3]
  read_stretch
  all_goals rfl
theorem keep4_v55 : StableHlo.after hostOps1_3 V (Proc.devRef .tc main_v55) = V (Proc.devRef .tc main_v55) := by
  simp only [hostOps1_3]
  read_stretch
  all_goals rfl
theorem keep4_v0_1 : StableHlo.after hostOps1_3 V (Proc.devRef .tc main_v0_1) = V (Proc.devRef .tc main_v0_1) := by
  simp only [hostOps1_3]
  read_stretch
  all_goals rfl
theorem keep4_arg9 : StableHlo.after hostOps1_3 V (Proc.devRef .tc main_arg9) = V (Proc.devRef .tc main_arg9) := by
  simp only [hostOps1_3]
  read_stretch
  all_goals rfl
theorem keep5_v48 : StableHlo.after hostOps1_4 V (Proc.devRef .tc main_v48) = V (Proc.devRef .tc main_v48) := by
  simp only [hostOps1_4]
  read_stretch
  all_goals rfl

/-- The first buffer the second stage reads: the aggregation of the first stage's first result. -/
theorem aggregated_pos (c : Dev nD) :
    W6 m ρ c (Proc.devRef .tc main_v48)
      = Graph.aggregate (F := Ideal) (W1 m ρ c (Proc.devRef .tc main_v0_0)) (W1 m ρ c (Proc.devRef .tc main_arg2)) (W1 m ρ c (Proc.devRef .tc main_arg7)) := by
  show StableHlo.after hostOps1_4 (StableHlo.after hostOps1_3 (StableHlo.after hostOps1_2 (StableHlo.after hostOps1_1 (StableHlo.after hostOps1 (W1 m ρ c))))) (Proc.devRef .tc main_v48) = _
  generalize W1 m ρ c = U
  rw [keep5_v48, keep4_v48, st3_pos, keep2_v0_0, keep1_v0_0, st2_weight, st1_positive, st1_invRoot, st1_zero,
    keep2_v4, st1_sources, keep2_v7, st1_targets, keep2_arg7, keep1_arg7]
  rfl

/-- The second buffer the second stage reads: the aggregation of the first stage's second result. -/
theorem aggregated_neg (c : Dev nD) :
    W6 m ρ c (Proc.devRef .tc main_v96)
      = Graph.aggregate (F := Ideal) (W1 m ρ c (Proc.devRef .tc main_v0_1)) (W1 m ρ c (Proc.devRef .tc main_arg3)) (W1 m ρ c (Proc.devRef .tc main_arg9)) := by
  show StableHlo.after hostOps1_4 (StableHlo.after hostOps1_3 (StableHlo.after hostOps1_2 (StableHlo.after hostOps1_1 (StableHlo.after hostOps1 (W1 m ρ c))))) (Proc.devRef .tc main_v96) = _
  generalize W1 m ρ c = U
  rw [st5_neg, keep4_v0_1, keep3_v0_1, keep2_v0_1, keep1_v0_1, st4_weight, st3_positive, st3_invRoot, st3_zero,
    keep4_v52, st3_sources, keep4_v55, st3_targets, keep2_arg3, keep1_arg3, keep4_arg9, keep3_arg9, keep2_arg9, keep1_arg9]
  rfl

/-- The second stage finds its two matrices and two biases as launched. -/
theorem kept6_arg10 (c : Dev nD) : W6 m ρ c (Proc.devRef .tc main_arg10) = m ((c : Thread nD τ).loc main_arg10) :=
  ((W7_arr m ρ c 2).trans (((dat1 (V6 m ρ) c).arrAt_in 2 rfl _).trans (A_eq1 (V6 m ρ) c 2))).symm.trans (W7_main_arg10 m ρ c)
theorem kept6_arg11 (c : Dev nD) : W6 m ρ c (Proc.devRef .tc main_arg11) = m ((c : Thread nD τ).loc main_arg11) :=
  ((W7_arr m ρ c 3).trans (((dat1 (V6 m ρ) c).arrAt_in 3 rfl _).trans (A_eq1 (V6 m ρ) c 3))).symm.trans (W7_main_arg11 m ρ c)
theorem kept6_arg12 (c : Dev nD) : W6 m ρ c (Proc.devRef .tc main_arg12) = m ((c : Thread nD τ).loc main_arg12) :=
  ((W7_arr m ρ c 4).trans (((dat1 (V6 m ρ) c).arrAt_in 4 rfl _).trans (A_eq1 (V6 m ρ) c 4))).symm.trans (W7_main_arg12 m ρ c)
theorem kept6_arg13 (c : Dev nD) : W6 m ρ c (Proc.devRef .tc main_arg13) = m ((c : Thread nD τ).loc main_arg13) :=
  ((W7_arr m ρ c 5).trans (((dat1 (V6 m ρ) c).arrAt_in 5 rfl _).trans (A_eq1 (V6 m ρ) c 5))).symm.trans (W7_main_arg13 m ρ c)

/-! ## After the second stage -/

/-- The result buffer at the end of the chain. -/
theorem result_buffer (c : Dev nD) : W7 m ρ c (Proc.devRef .tc main_v97) = result m c := by
  refine (W7_arr m ρ c 6).trans ((Blocks.final1 (V6 m ρ) c).trans ?_)
  show fused (n := 100000) (W6 m ρ c (Proc.devRef .tc main_v48)) (W6 m ρ c (Proc.devRef .tc main_v96))
      (W6 m ρ c (Proc.devRef .tc main_arg10)) (W6 m ρ c (Proc.devRef .tc main_arg11))
      (W6 m ρ c (Proc.devRef .tc main_arg12)) (W6 m ρ c (Proc.devRef .tc main_arg13)) = _
  rw [aggregated_pos, aggregated_neg, kept6_arg10, kept6_arg11, kept6_arg12, kept6_arg13,
    first_result, second_result, kept1_arg2, kept1_arg3, kept1_arg7, kept1_arg9]
  rfl

/-! ## The run -/

set_option backward.isDefEq.respectTransparency.types false in
/-- Every weakly fair execution of the program terminates, without a fault, with the result buffer at `result` and the
    argument arrays as launched: the run of the program's seven segments (two dense stages among five stretches of host
    operations), the last thread state read against the final state at the result buffer and at each argument. -/
theorem run : θ_run defs (onTc (τ := τ) (main (F := Ideal))) ⟨m, fun _ => 0, ρ⟩ (fun r => ∀ c : Dev nD,
      r.2.mem ((c.tc : Thread nD τ).loc main_v97) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v97 (by decide))).trans (result_buffer m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.Whole

end
-- ==== Proof.RefValue.lean ====
/-
  The reference program's result, as the specification's expression.

  The reference normalises every row of the feature array (mean and mean squared deviation by a sum over the 64 features
  divided by 64, reciprocal square root of the deviation plus a small offset, scale and shift feature by feature) and sends
  it through two 64 x 64 matrices; each image is aggregated over its own graph; the two aggregates go through two more
  matrices, get their biases, are added and clipped between two bounds.

  Read one operation at a time, the dense stages are, index by index, the row functions of RowMath lifted to arrays in
  ArrMath: stage 23 is the normalised row, stages 24 and 73 are its two matrix images (`xform`), and stages 122 to 131 are
  `fused` of the two aggregates. The sparse stages 25 to 72 and 74 to 121 are never read at an index: they are the same
  composition of the same gathers, scatter-adds and concatenations as `Graph.aggregate`, applied to stage 24 (to stage 73)
  and the edge list, so the two are equal as they stand.
-/
import proofs.«140525_j10986526343306_1_alg».proof.Proof.RefRead
import proofs.«140525_j10986526343306_1_alg».proof.Proof.ArrMath
import proofs.«140525_j10986526343306_1_alg».proof.Proof.Graph
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.RowMath Cert.ArrMath

/-- An array of 100000 rows of 64 features. -/
abbrev Arr : Type := (⟨S100000x64, .f32⟩ : BufTy).Contents (Elt Ideal)
/-- A 2 x 1000000 edge list. -/
abbrev Edges : Type := (⟨S2x1000000, .i32⟩ : BufTy).Contents (Elt Ideal)
/-- A vector of 64 features. -/
abbrev Vec : Type := (⟨S64, .f32⟩ : BufTy).Contents (Elt Ideal)
/-- A 64 x 64 matrix. -/
abbrev Mat : Type := (⟨S64x64, .f32⟩ : BufTy).Contents (Elt Ideal)

/-! ## The dense first stage: the normalised rows and their matrix images -/

/-- Stages 0 to 3 at row `p`: the sum of the row (the reduction starts from the zero word) divided by 64 is the row's mean. -/
theorem mean_eq (x1 : Arr) (p : Fin 100000) :
    ReadP.val_main_v3 (F := Ideal) x1 (ix2 p (0 : Fin 1)) = mean (rowOf x1 p) := by
  rw [ReadP.val_main_v3_apply, ReadP.val_main_v1_apply, ReadP.val_main_v0_apply, ReadP.val_main_v2_apply,
    ReadP.val_main_cst_apply, ReadP.val_main_cst_0_apply]
  rw [Ideal.hostDivf_def, Ideal.ofBits_def, Ideal.ofBits_def, Ideal.ofBits_zero_f32, zero_add]
  unfold mean rowOf
  refine congrArg (Ideal.div · sixtyFour) (Finset.sum_congr rfl fun k _ => congrArg x1 ?_)
  exact funext fun a => Fin.ext (by match a with | ⟨0, _⟩ => rfl | ⟨1, _⟩ => rfl)

/-- Stages 4 to 10 at row `p`: the deviations from the mean, squared, summed over the row and divided by 64. -/
theorem msd_eq (x1 : Arr) (p : Fin 100000) :
    ReadP.val_main_v10 (F := Ideal) x1 (ix2 p (0 : Fin 1)) = msd (rowOf x1 p) := by
  rw [ReadP.val_main_v10_apply, ReadP.val_main_v8_apply, ReadP.val_main_v7_apply, ReadP.val_main_v9_apply,
    ReadP.val_main_cst_1_apply, ReadP.val_main_cst_2_apply]
  rw [Ideal.hostDivf_def, Ideal.ofBits_def, Ideal.ofBits_def, Ideal.ofBits_zero_f32, zero_add]
  unfold msd
  refine congrArg (Ideal.div · sixtyFour) (Finset.sum_congr rfl fun k _ => ?_)
  have hk : ReadP.idx_main_v7 (ReadP.idx_main_v8 (ix2 p (0 : Fin 1))) k = ix2 p k :=
    funext fun a => Fin.ext (by match a with | ⟨0, _⟩ => rfl | ⟨1, _⟩ => rfl)
  have h4 : ReadP.idx_main_v4 (ix2 p k) = ix2 p (0 : Fin 1) :=
    funext fun a => Fin.ext (by match a with | ⟨0, _⟩ => rfl | ⟨1, _⟩ => rfl)
  rw [hk, ReadP.val_main_v6_apply, ReadP.val_main_v5_apply, ReadP.val_main_v4_apply, h4, mean_eq]
  rfl

/-- Stages 11 to 23 at `(p, k)`: the deviation from the mean times the reciprocal square root of the mean squared
    deviation plus the offset, times the scale, plus the shift: the normalised row at feature `k`. -/
theorem hn_eq (x1 : Arr) (x4 x5 : Vec) (p : Fin 100000) (k : Fin 64) :
    ReadP.val_main_v23 (F := Ideal) x1 x4 x5 (ix2 p k) = norm (rowOf x1 p) (vecOf x4) (vecOf x5) k := by
  have h11 : ReadP.idx_main_v11 (ix2 p k) = ix2 p (0 : Fin 1) :=
    funext fun a => Fin.ext (by match a with | ⟨0, _⟩ => rfl | ⟨1, _⟩ => rfl)
  have h16 : ReadP.idx_main_v16 (ix2 p k) = ix2 p (0 : Fin 1) :=
    funext fun a => Fin.ext (by match a with | ⟨0, _⟩ => rfl | ⟨1, _⟩ => rfl)
  have h18 : ReadP.idx_main_v18 (ReadP.idx_main_v19 (ix2 p k)) = ix1 k :=
    funext fun a => Fin.ext (by match a with | ⟨0, _⟩ => rfl)
  have h21 : ReadP.idx_main_v21 (ReadP.idx_main_v22 (ix2 p k)) = ix1 k :=
    funext fun a => Fin.ext (by match a with | ⟨0, _⟩ => rfl)
  rw [ReadP.val_main_v23_apply, ReadP.val_main_v20_apply, ReadP.val_main_v17_apply, ReadP.val_main_v12_apply,
    ReadP.val_main_v11_apply, ReadP.val_main_v16_apply, ReadP.val_main_v15_apply, ReadP.val_main_v14_apply,
    ReadP.val_main_v13_apply, ReadP.val_main_cst_3_apply, ReadP.val_main_v19_apply, ReadP.val_main_v18_apply,
    ReadP.val_main_v22_apply, ReadP.val_main_v21_apply, h11, h16, h18, h21, mean_eq, msd_eq]
  rfl

/-- Stage 24: every normalised row times the first matrix. -/
theorem first_pos_eq (x1 : Arr) (x4 x5 : Vec) (x6 : Mat) :
    ReadP.val_main_v24 (F := Ideal) x1 x4 x5 x6 = xform (n := 100000) x1 x4 x5 x6 := by
  funext i
  obtain ⟨p, q, rfl⟩ : ∃ (p : Fin 100000) (q : Fin 64), i = ix2 p q := ⟨i 0, i 1, eq_ix2 i⟩
  rw [ReadP.val_main_v24_apply, xform_ix2]
  unfold lin
  refine Finset.sum_congr rfl fun k _ => ?_
  have hl : ReadP.lidx_main_v24 (ix2 p q) k = ix2 p k :=
    funext fun a => Fin.ext (by match a with | ⟨0, _⟩ => rfl | ⟨1, _⟩ => rfl)
  have hr : ReadP.ridx_main_v24 (ix2 p q) k = ix2 k q :=
    funext fun a => Fin.ext (by match a with | ⟨0, _⟩ => rfl | ⟨1, _⟩ => rfl)
  rw [hl, hr, hn_eq]
  rfl

/-- Stage 73: every normalised row times the second matrix. -/
theorem first_neg_eq (x1 : Arr) (x4 x5 : Vec) (x8 : Mat) :
    ReadP.val_main_v73 (F := Ideal) x1 x4 x5 x8 = xform (n := 100000) x1 x4 x5 x8 := by
  funext i
  obtain ⟨p, q, rfl⟩ : ∃ (p : Fin 100000) (q : Fin 64), i = ix2 p q := ⟨i 0, i 1, eq_ix2 i⟩
  rw [ReadP.val_main_v73_apply, xform_ix2]
  unfold lin
  refine Finset.sum_congr rfl fun k _ => ?_
  have hl : ReadP.lidx_main_v73 (ix2 p q) k = ix2 p k :=
    funext fun a => Fin.ext (by match a with | ⟨0, _⟩ => rfl | ⟨1, _⟩ => rfl)
  have hr : ReadP.ridx_main_v73 (ix2 p q) k = ix2 k q :=
    funext fun a => Fin.ext (by match a with | ⟨0, _⟩ => rfl | ⟨1, _⟩ => rfl)
  rw [hl, hr, hn_eq]
  rfl

/-! ## The sparse stages

Stages 25 to 72 (and 74 to 121) build, from the edge list, the sources and destinations with the self-loops appended, the
degrees by a scatter-add of ones, the weights, the edge coefficients by two gathers, the messages by a gather of the
features, and scatter-add them at the destinations before adding the bias: operation for operation the composition
`Graph.aggregate` names, on the same dimension records. Nothing is computed: each equation holds by unfolding the names. -/

/-- Stages 25 to 28: the sources followed by the self-loops. -/
theorem src_pos_eq (x2 : Edges) : ReadP.val_main_v28 (F := Ideal) x2 = Cert.KernelIdeal.Graph.sources (F := Ideal) x2 := rfl
/-- Stages 29 to 31: the destinations followed by the self-loops. -/
theorem tgt_pos_eq (x2 : Edges) : ReadP.val_main_v31 (F := Ideal) x2 = Cert.KernelIdeal.Graph.targets (F := Ideal) x2 := rfl
/-- Stages 32 to 35: the degrees. -/
theorem deg_pos_eq (x2 : Edges) : ReadP.val_main_v35 (F := Ideal) x2 = Cert.KernelIdeal.Graph.degree (F := Ideal) x2 := rfl
/-- Stages 36 to 41: the weights. -/
theorem wt_pos_eq (x2 : Edges) : ReadP.val_main_v41 (F := Ideal) x2 = Cert.KernelIdeal.Graph.weight (F := Ideal) x2 := rfl
/-- Stages 42 to 56: the edge coefficients. -/
theorem coef_pos_eq (x2 : Edges) : ReadP.val_main_v56 (F := Ideal) x2 = Cert.KernelIdeal.Graph.coefficient (F := Ideal) x2 := rfl
/-- Stages 25 to 72: the aggregation of stage 24 over the first graph, plus the first bias. -/
theorem agg_pos_eq (x1 : Arr) (x2 : Edges) (x4 x5 : Vec) (x6 : Mat) (x7 : Vec) :
    ReadP.val_main_v72 (F := Ideal) x1 x2 x4 x5 x6 x7
      = Cert.KernelIdeal.Graph.aggregate (F := Ideal) (ReadP.val_main_v24 (F := Ideal) x1 x4 x5 x6) x2 x7 := rfl

/-- Stages 74 to 77: the second graph's sources followed by the self-loops. -/
theorem src_neg_eq (x3 : Edges) : ReadP.val_main_v77 (F := Ideal) x3 = Cert.KernelIdeal.Graph.sources (F := Ideal) x3 := rfl
/-- Stages 78 to 80: its destinations followed by the self-loops. -/
theorem tgt_neg_eq (x3 : Edges) : ReadP.val_main_v80 (F := Ideal) x3 = Cert.KernelIdeal.Graph.targets (F := Ideal) x3 := rfl
/-- Stages 81 to 84: its degrees. -/
theorem deg_neg_eq (x3 : Edges) : ReadP.val_main_v84 (F := Ideal) x3 = Cert.KernelIdeal.Graph.degree (F := Ideal) x3 := rfl
/-- Stages 85 to 90: its weights. -/
theorem wt_neg_eq (x3 : Edges) : ReadP.val_main_v90 (F := Ideal) x3 = Cert.KernelIdeal.Graph.weight (F := Ideal) x3 := rfl
/-- Stages 91 to 105: its edge coefficients. -/
theorem coef_neg_eq (x3 : Edges) : ReadP.val_main_v105 (F := Ideal) x3 = Cert.KernelIdeal.Graph.coefficient (F := Ideal) x3 := rfl
/-- Stages 74 to 121: the aggregation of stage 73 over the second graph, plus the second bias. -/
theorem agg_neg_eq (x1 : Arr) (x3 : Edges) (x4 x5 : Vec) (x8 : Mat) (x9 : Vec) :
    ReadP.val_main_v121 (F := Ideal) x1 x3 x4 x5 x8 x9
      = Cert.KernelIdeal.Graph.aggregate (F := Ideal) (ReadP.val_main_v73 (F := Ideal) x1 x4 x5 x8) x3 x9 := rfl

/-! ## The dense last stage -/

/-- Stages 122 to 131: the two aggregates through their matrices, each plus its bias, added, and clipped from below and
    then from above. The aggregates enter only through their rows, read at `(p, k)`. -/
theorem out_eq (x1 : Arr) (x2 x3 : Edges) (x4 x5 : Vec) (x6 : Mat) (x7 : Vec) (x8 : Mat) (x9 : Vec)
    (x10 : Mat) (x11 : Vec) (x12 : Mat) (x13 : Vec) :
    ReadP.val_main_v131 (F := Ideal) x1 x2 x3 x4 x5 x6 x7 x8 x9 x10 x11 x12 x13
      = fused (n := 100000) (ReadP.val_main_v72 (F := Ideal) x1 x2 x4 x5 x6 x7)
          (ReadP.val_main_v121 (F := Ideal) x1 x3 x4 x5 x8 x9) x10 x11 x12 x13 := by
  funext i
  obtain ⟨p, q, rfl⟩ : ∃ (p : Fin 100000) (q : Fin 64), i = ix2 p q := ⟨i 0, i 1, eq_ix2 i⟩
  have hbp : ReadP.idx_main_v123 (ReadP.idx_main_v124 (ix2 p q)) = ix1 q :=
    funext fun a => Fin.ext (by match a with | ⟨0, _⟩ => rfl)
  have hbn : ReadP.idx_main_v127 (ReadP.idx_main_v128 (ix2 p q)) = ix1 q :=
    funext fun a => Fin.ext (by match a with | ⟨0, _⟩ => rfl)
  have hlp : ∀ k : Fin 64, ReadP.lidx_main_v122 (ix2 p q) k = ix2 p k := fun k =>
    funext fun a => Fin.ext (by match a with | ⟨0, _⟩ => rfl | ⟨1, _⟩ => rfl)
  have hrp : ∀ k : Fin 64, ReadP.ridx_main_v122 (ix2 p q) k = ix2 k q := fun k =>
    funext fun a => Fin.ext (by match a with | ⟨0, _⟩ => rfl | ⟨1, _⟩ => rfl)
  have hln : ∀ k : Fin 64, ReadP.lidx_main_v126 (ix2 p q) k = ix2 p k := fun k =>
    funext fun a => Fin.ext (by match a with | ⟨0, _⟩ => rfl | ⟨1, _⟩ => rfl)
  have hrn : ∀ k : Fin 64, ReadP.ridx_main_v126 (ix2 p q) k = ix2 k q := fun k =>
    funext fun a => Fin.ext (by match a with | ⟨0, _⟩ => rfl | ⟨1, _⟩ => rfl)
  rw [ReadP.val_main_v131_apply, ReadP.val_main_call2_v4_apply, ReadP.val_main_call2_v3_apply,
    ReadP.val_main_cst_28_apply, ReadP.val_main_call2_v2_apply, ReadP.val_main_call2_v1_apply,
    ReadP.val_main_call2_v0_apply, ReadP.val_main_cst_27_apply, ReadP.val_main_v130_apply,
    ReadP.val_main_v125_apply, ReadP.val_main_v122_apply, ReadP.val_main_v124_apply, ReadP.val_main_v123_apply,
    ReadP.val_main_v129_apply, ReadP.val_main_v126_apply, ReadP.val_main_v128_apply, ReadP.val_main_v127_apply,
    hbp, hbn]
  simp only [hlp, hrp, hln, hrn]
  rfl

/-! ## The reference's result -/

/-- The reference's result is `fused` of the two aggregates of the two matrix images of the normalised rows. -/
theorem result_eq (m : (ℓ : Loc nD τ sig) → Buf (Elt Ideal) ℓ) (c : Dev nD) :
    ValueP.res_main_v131 (F := Ideal) m c
      = fused (n := 100000)
          (Cert.KernelIdeal.Graph.aggregate (F := Ideal)
            (xform (n := 100000) (m ((c.tc : Thread nD τ).loc main_arg1)) (m ((c.tc : Thread nD τ).loc main_arg4))
              (m ((c.tc : Thread nD τ).loc main_arg5)) (m ((c.tc : Thread nD τ).loc main_arg6)))
            (m ((c.tc : Thread nD τ).loc main_arg2)) (m ((c.tc : Thread nD τ).loc main_arg7)))
          (Cert.KernelIdeal.Graph.aggregate (F := Ideal)
            (xform (n := 100000) (m ((c.tc : Thread nD τ).loc main_arg1)) (m ((c.tc : Thread nD τ).loc main_arg4))
              (m ((c.tc : Thread nD τ).loc main_arg5)) (m ((c.tc : Thread nD τ).loc main_arg8)))
            (m ((c.tc : Thread nD τ).loc main_arg3)) (m ((c.tc : Thread nD τ).loc main_arg9)))
          (m ((c.tc : Thread nD τ).loc main_arg10)) (m ((c.tc : Thread nD τ).loc main_arg11))
          (m ((c.tc : Thread nD τ).loc main_arg12)) (m ((c.tc : Thread nD τ).loc main_arg13)) := by
  rw [ReadP.val_main_v131_eq, out_eq, agg_pos_eq, agg_neg_eq, first_pos_eq, first_neg_eq]

end Cert.ReferenceIdeal.RefValue

end
-- ==== Proof.lean ====
/-
  The certificate: the kernel (a normalise-and-transform stage, a graph aggregation done twice by host operations, and a
  fuse-and-clip stage) against its reference (the same mathematics as one host program), on the extended reals.

  Each of the three programs runs to the end without a fault and leaves its arguments as launched. The idealised kernel is
  the kernel's own text read on the extended reals (no operation was rewritten). The two idealised programs end with
  equal results: the kernel's result array is `fused` of the two aggregated arrays, each the aggregation of `xform` of the
  features, because each dense stage writes, block of rows by block of rows, a function whose entries depend on their own
  row only; the reference's result is the same expression, its row sums, matrix products and layout operations read
  entry by entry; and the aggregation, which both programs spell with the same operations, is carried as one function
  that is never opened. No law of arithmetic beyond reading sums and products index by index is used, so the
  precondition (finite inputs) is not needed for the value.
-/
import proofs.«140525_j10986526343306_1_alg».proof.Defs
import proofs.«140525_j10986526343306_1_alg».proof.Proof.Gen.Kernel
import proofs.«140525_j10986526343306_1_alg».proof.Proof.Gen.Kernel.Frame
import proofs.«140525_j10986526343306_1_alg».proof.Proof.Gen.KernelIdeal
import proofs.«140525_j10986526343306_1_alg».proof.Proof.Gen.KernelIdeal.Frame
import proofs.«140525_j10986526343306_1_alg».proof.Proof.Gen.ReferenceIdeal
import proofs.«140525_j10986526343306_1_alg».proof.Proof.Gen.Pre_finite_inputs
import proofs.«140525_j10986526343306_1_alg».proof.Proof.KernelValue
import proofs.«140525_j10986526343306_1_alg».proof.Proof.RefRun
import proofs.«140525_j10986526343306_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealised kernel runs and keeps its arguments. -/
theorem frame_kernelIdeal : Cert.frame_KernelIdeal := fun m ρ _ => Cert.KernelIdeal.Gen.frame m ρ

/-- The idealised reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote nothing. -/
theorem preserves : Cert.preserves_Kernel_KernelIdeal := trivial

/-- From memories that agree on the arguments the two idealised programs end with equal results. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨-, e1, e2, e3, e4, e5, e6, e7, e8, e9, e10, e11, e12, e13⟩ := hagree c
  rw [Cert.ReferenceIdeal.RefValue.result_eq m' c, e1, e2, e3, e4, e5, e6, e7, e8, e9, e10, e11, e12, e13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
